-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x128 : Shape := ⟨3, ![4096, 128, 128]⟩
abbrev S4096x128x64 : Shape := ⟨3, ![4096, 128, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S_ : Shape := ⟨0, ![]⟩
abbrev S4096x128 : Shape := ⟨2, ![4096, 128]⟩

class Facts : Prop where
  bcast_S_S4096x128x128 : S_.BroadcastsInDim S4096x128x128 (![] : Fin 0 → Fin S4096x128x128.rank)
  reducesTo_S4096x128x128_S_d0_1_2 : S4096x128x128.ReducesTo [0, 1, 2] S_
  h_S_ : 0 < S_.numel
  bcast_S_S4096x128x64 : S_.BroadcastsInDim S4096x128x64 (![] : Fin 0 → Fin S4096x128x64.rank)
  reducesTo_S4096x128x64_S_d0_1_2 : S4096x128x64.ReducesTo [0, 1, 2] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  reducesTo_S4096x128x128_S4096x128_d2 : S4096x128x128.ReducesTo [2] S4096x128
  bcast_S_S4096x128 : S_.BroadcastsInDim S4096x128 (![] : Fin 0 → Fin S4096x128.rank)
  reducesTo_S4096x128_S_d0_1 : S4096x128.ReducesTo [0, 1] S_

variable [Facts]

def fn_part5 {F : FTy → Type} [FloatOps F] (main_v80 : IVec S_ 1) (main_v83 : IVec S_ 1) : IVec S_ 1 :=
  let main_v84 : IVec S_ 1 := andi main_v80 main_v83
  main_v84

def fn_part4 {F : FTy → Type} [FloatOps F] (main_arg0 : FVec F S4096x128x128 .f32) (main_arg7 : FVec F S256 .f32) (main_arg13 : FVec F S128 .f32) (main_v63 : IVec S_ 1) (main_v67 : IVec S_ 1) : IVec S_ 1 :=
  let main_v68 : IVec S_ 1 := andi main_v63 main_v67
  let main_cst_26 : FVec F S_ .f32 := constant S_ .f32 0x3DCCCCCD#32
  let main_v69 : FVec F S4096x128x128 .f32 := broadcastInDim S4096x128x128 ![] bcast_S_S4096x128x128 main_cst_26
  let main_v70 : IVec S4096x128x128 1 := cmpf .oge main_arg0 main_v69
  let main_v71 : FVec F S4096x128x128 .f32 := uitofp .f32 main_v70
  let main_cst_27 : FVec F S_ .f32 := constant S_ .f32 0x00000000#32
  let main_v72 : FVec F S4096x128 .f32 := (fun x v => Host.reduceAdd x v reducesTo_S4096x128x128_S4096x128_d2 h_S_) main_v71 main_cst_27
  let main_cst_28 : FVec F S_ .f32 := constant S_ .f32 0x00000000#32
  let main_v73 : FVec F S4096x128 .f32 := broadcastInDim S4096x128 ![] bcast_S_S4096x128 main_cst_28
  let main_v74 : IVec S4096x128 1 := cmpf .ogt main_v72 main_v73
  let main_c_29 : IVec S_ 1 := constantI S_ 1 1#1
  let main_v75 : IVec S_ 1 := (fun x v => Host.reduce IntOp.andi x v reducesTo_S4096x128_S_d0_1 h_S_) main_v74 main_c_29
  let main_v76 : IVec S_ 1 := andi main_v68 main_v75
  let main_cst_30 : FVec F S_ .f32 := constant S_ .f32 0x00000000#32
  let main_v77 : FVec F S256 .f32 := broadcastInDim S256 ![] bcast_S_S256 main_cst_30
  let main_v78 : IVec S256 1 := cmpf .oge main_arg7 main_v77
  let main_c_31 : IVec S_ 1 := constantI S_ 1 1#1
  let main_v79 : IVec S_ 1 := (fun x v => Host.reduce IntOp.andi x v reducesTo_S256_S_d0 h_S_) main_v78 main_c_31
  let main_v80 : IVec S_ 1 := andi main_v76 main_v79
  let main_cst_32 : FVec F S_ .f32 := constant S_ .f32 0x00000000#32
  let main_v81 : FVec F S128 .f32 := broadcastInDim S128 ![] bcast_S_S128 main_cst_32
  let main_v82 : IVec S128 1 := cmpf .oge main_arg13 main_v81
  let main_c_33 : IVec S_ 1 := constantI S_ 1 1#1
  let main_v83 : IVec S_ 1 := (fun x v => Host.reduce IntOp.andi x v reducesTo_S128_S_d0 h_S_) main_v82 main_c_33
  fn_part5 (F := F) main_v80 main_v83

def fn_part3 {F : FTy → Type} [FloatOps F] (main_arg0 : FVec F S4096x128x128 .f32) (main_arg7 : FVec F S256 .f32) (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg7 main_arg13 main_v63 main_v67

def fn_part2 {F : FTy → Type} [FloatOps F] (main_arg0 : FVec F S4096x128x128 .f32) (main_arg7 : FVec F S256 .f32) (main_arg8 : FVec F S256x128 .f32) (main_arg9 : FVec F S128 .f32) (main_arg10 : FVec F S128 .f32) (main_arg11 : FVec F S128 .f32) (main_arg12 : FVec F S128 .f32) (main_arg13 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg0 main_arg7 main_arg11 main_arg12 main_arg13 main_v48 main_v49 main_v50

def fn_part1 {F : FTy → Type} [FloatOps F] (main_arg0 : FVec F S4096x128x128 .f32) (main_arg4 : FVec F S256 .f32) (main_arg5 : FVec F S256 .f32) (main_arg6 : FVec F S256 .f32) (main_arg7 : FVec F S256 .f32) (main_arg8 : FVec F S256x128 .f32) (main_arg9 : FVec F S128 .f32) (main_arg10 : FVec F S128 .f32) (main_arg11 : FVec F S128 .f32) (main_arg12 : FVec F S128 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg7 main_arg8 main_arg9 main_arg10 main_arg11 main_arg12 main_arg13 main_v33

def fn {F : FTy → Type} [FloatOps F] (main_arg0 : FVec F S4096x128x128 .f32) (main_arg1 : FVec F S4096x128x64 .f32) (main_arg2 : FVec F S64x256 .f32) (main_arg3 : FVec F S256 .f32) (main_arg4 : FVec F S256 .f32) (main_arg5 : FVec F S256 .f32) (main_arg6 : FVec F S256 .f32) (main_arg7 : FVec F S256 .f32) (main_arg8 : FVec F S256x128 .f32) (main_arg9 : FVec F S128 .f32) (main_arg10 : FVec F S128 .f32) (main_arg11 : FVec F S128 .f32) (main_arg12 : FVec F S128 .f32) (main_arg13 : FVec F S128 .f32) : IVec S_ 1 :=
  let main_v0 : FVec F S4096x128x128 .f32 := Host.absf main_arg0
  let main_cst : FVec F S_ .f32 := constant S_ .f32 0x7F800000#32
  let main_v1 : FVec F S4096x128x128 .f32 := broadcastInDim S4096x128x128 ![] bcast_S_S4096x128x128 main_cst
  let main_v2 : IVec S4096x128x128 1 := cmpf .olt main_v0 main_v1
  let main_c : IVec S_ 1 := constantI S_ 1 1#1
  let main_v3 : IVec S_ 1 := (fun x v => Host.reduce IntOp.andi x v reducesTo_S4096x128x128_S_d0_1_2 h_S_) main_v2 main_c
  let main_v4 : FVec F S4096x128x64 .f32 := Host.absf main_arg1
  let main_cst_0 : FVec F S_ .f32 := constant S_ .f32 0x7F800000#32
  let main_v5 : FVec F S4096x128x64 .f32 := broadcastInDim S4096x128x64 ![] bcast_S_S4096x128x64 main_cst_0
  let main_v6 : IVec S4096x128x64 1 := cmpf .olt main_v4 main_v5
  let main_c_1 : IVec S_ 1 := constantI S_ 1 1#1
  let main_v7 : IVec S_ 1 := (fun x v => Host.reduce IntOp.andi x v reducesTo_S4096x128x64_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg4 main_arg5 main_arg6 main_arg7 main_arg8 main_arg9 main_arg10 main_arg11 main_arg12 main_arg13 main_v13 main_v16
-- ==== Kernel.lean ====
abbrev S4096x128x128 : Shape := ⟨3, ![4096, 128, 128]⟩
abbrev S4096x128x64 : Shape := ⟨3, ![4096, 128, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S_ : Shape := ⟨0, ![]⟩
abbrev S524288x128 : Shape := ⟨2, ![524288, 128]⟩
abbrev S64x128x128 : Shape := ⟨3, ![64, 128, 128]⟩
abbrev S64x128x64 : Shape := ⟨3, ![64, 128, 64]⟩
abbrev S64x128 : Shape := ⟨2, ![64, 128]⟩
abbrev S64x128x1 : Shape := ⟨3, ![64, 128, 1]⟩
abbrev S8192x64 : Shape := ⟨2, ![8192, 64]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩

abbrev nBuf : Space → Nat
  | .hbm => 32
  | .vmem => 12
  | .smem => 0
  | _ => 0

abbrev bufTy : (tb : Table) → Fin (tcTables nBuf tb) → BufTy
  | .hbm, ⟨0, _⟩ => ⟨S4096x128x128, .f32⟩
  | .hbm, ⟨1, _⟩ => ⟨S4096x128x64, .f32⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S4096x128x128, .f32⟩
  | .hbm, ⟨31, _⟩ => ⟨S524288x128, .f32⟩
  | .local _ .vmem, ⟨0, _⟩ => ⟨S64x128x128, .f32⟩
  | .local _ .vmem, ⟨1, _⟩ => ⟨S64x128x128, .f32⟩
  | .local _ .vmem, ⟨2, _⟩ => ⟨S64x128x64, .f32⟩
  | .local _ .vmem, ⟨3, _⟩ => ⟨S64x128x64, .f32⟩
  | .local _ .vmem, ⟨4, _⟩ => ⟨S64x256, .f32⟩
  | .local _ .vmem, ⟨5, _⟩ => ⟨S256, .f32⟩
  | .local _ .vmem, ⟨6, _⟩ => ⟨S256, .f32⟩
  | .local _ .vmem, ⟨7, _⟩ => ⟨S256x128, .f32⟩
  | .local _ .vmem, ⟨8, _⟩ => ⟨S128, .f32⟩
  | .local _ .vmem, ⟨9, _⟩ => ⟨S128, .f32⟩
  | .local _ .vmem, ⟨10, _⟩ => ⟨S64x128x128, .f32⟩
  | .local _ .vmem, ⟨11, _⟩ => ⟨S64x128x128, .f32⟩
  | _, _ => ⟨S4096x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_0 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S256 : S_.BroadcastsInDim S256 (![] : Fin 0 → Fin S256.rank)
  bcast_S_S128 : S_.BroadcastsInDim S128 (![] : Fin 0 → Fin S128.rank)
  shapeCasts_S4096x128x128_S524288x128 : S4096x128x128.ShapeCasts S524288x128
  inb_S64x128x128_S64x128x128_0_0_0 : ∀ a, (![0, 0, 0] : Fin 3 → Nat) a + S64x128x128.size a ≤ S64x128x128.size a
  h_S64x128x128 : 0 < S64x128x128.numel
  natLt_1_32 : 1 < 32
  reduces_S64x128x128_S64x128 : S64x128x128.Reduces [2] S64x128
  bitsLt_bf16_f32 : FTy.bits .bf16 < FTy.bits .f32
  inb_S64x128x64_S64x128x64_0_0_0 : ∀ a, (![0, 0, 0] : Fin 3 → Nat) a + S64x128x64.size a ≤ S64x128x64.size a
  h_S64x128x64 : 0 < S64x128x64.numel
  shapeCasts_S64x128_S64x128x1 : S64x128.ShapeCasts S64x128x1
  broadcasts_S64x128x1_S64x128x64 : S64x128x1.Broadcasts S64x128x64
  shapeCasts_S64x128x64_S8192x64 : S64x128x64.ShapeCasts S8192x64
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S8192x256 : S1x256.Broadcasts S8192x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S8192x128 : S1x128.Broadcasts S8192x128
  shapeCasts_S8192x128_S64x128x128 : S8192x128.ShapeCasts S64x128x128
  dot_S64x128x128_S64x128x64_S64x128x64_2_1_1_2_0_0_wf : DotDims.WF S64x128x128 S64x128x64 S64x128x64 [2] [1] [1] [2] [0] [0]
  dot_S8192x64_S64x256_S8192x256_1_0_0_1_n_n_wf : DotDims.WF S8192x64 S64x256 S8192x256 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S4096x128x128.size a
  hwx0_0 : ∀ i : grid0.Coords, EltTy.bits .f32 = 32 ∨ (Rect.block (s := S4096x128x128) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x64.size a ≤ S4096x128x64.size a
  hwx0_1 : ∀ i : grid0.Coords, EltTy.bits .f32 = 32 ∨ (Rect.block (s := S4096x128x64) S64x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128x128.size a ≤ S4096x128x128.size a
  hwx0_8 : ∀ i : grid0.Coords, EltTy.bits .f32 = 32 ∨ (Rect.block (s := S4096x128x128) S64x128x128.size (cc0_transform_8 i) (hinb0_8 i)).WholeWords (EltTy.packing .f32)

variable [Facts₀]

def dot_S64x128x128_S64x128x64_S64x128x64_2_1_1_2_0_0 : DotDims S64x128x128 S64x128x64 S64x128x64 where
  lhsContracting := [2]
  rhsContracting := [1]
  lhsNonContracting := [1]
  rhsNonContracting := [2]
  lhsBatch := [0]
  rhsBatch := [0]
  wf := dot_S64x128x128_S64x128x64_S64x128x64_2_1_1_2_0_0_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_arg0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v13) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v14) S64x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x128x128 : Shape := ⟨3, ![4096, 128, 128]⟩
abbrev S4096x128x64 : Shape := ⟨3, ![4096, 128, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S_ : Shape := ⟨0, ![]⟩
abbrev S4096x128 : Shape := ⟨2, ![4096, 128]⟩
abbrev S4096x128x1 : Shape := ⟨3, ![4096, 128, 1]⟩
abbrev S4096x1x128 : Shape := ⟨3, ![4096, 1, 128]⟩
abbrev S524288x64 : Shape := ⟨2, ![524288, 64]⟩
abbrev S524288x256 : Shape := ⟨2, ![524288, 256]⟩
abbrev S1x256 : Shape := ⟨2, ![1, 256]⟩
abbrev S524288x128 : Shape := ⟨2, ![524288, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x128x128, .f32⟩
  | .hbm, ⟨1, _⟩ => ⟨S4096x128x64, .f32⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S4096x128x128, .f32⟩
  | .hbm, ⟨16, _⟩ => ⟨S4096x128x128, .i1⟩
  | .hbm, ⟨17, _⟩ => ⟨S4096x128x128, .f32⟩
  | .hbm, ⟨18, _⟩ => ⟨S_, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .f32⟩
  | .hbm, ⟨23, _⟩ => ⟨S4096x128x1, .f32⟩
  | .hbm, ⟨24, _⟩ => ⟨S4096x128x128, .f32⟩
  | .hbm, ⟨25, _⟩ => ⟨S4096x128x128, .f32⟩
  | .hbm, ⟨26, _⟩ => ⟨S4096x1x128, .f32⟩
  | .hbm, ⟨27, _⟩ => ⟨S4096x128x128, .f32⟩
  | .hbm, ⟨28, _⟩ => ⟨S4096x128x128, .f32⟩
  | .hbm, ⟨29, _⟩ => ⟨S4096x128x64, .f32⟩
  | .hbm, ⟨30, _⟩ => ⟨S524288x64, .f32⟩
  | .hbm, ⟨31, _⟩ => ⟨S524288x256, .f32⟩
  | .hbm, ⟨32, _⟩ => ⟨S1x256, .f32⟩
  | .hbm, ⟨33, _⟩ => ⟨S524288x256, .f32⟩
  | .hbm, ⟨34, _⟩ => ⟨S524288x256, .f32⟩
  | .hbm, ⟨35, _⟩ => ⟨S1x256, .f32⟩
  | .hbm, ⟨36, _⟩ => ⟨S524288x256, .f32⟩
  | .hbm, ⟨37, _⟩ => ⟨S524288x256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S524288x256, .f32⟩
  | .hbm, ⟨44, _⟩ => ⟨S524288x256, .f32⟩
  | .hbm, ⟨45, _⟩ => ⟨S1x256, .f32⟩
  | .hbm, ⟨46, _⟩ => ⟨S524288x256, .f32⟩
  | .hbm, ⟨47, _⟩ => ⟨S524288x256, .f32⟩
  | .hbm, ⟨48, _⟩ => ⟨S1x256, .f32⟩
  | .hbm, ⟨49, _⟩ => ⟨S524288x256, .f32⟩
  | .hbm, ⟨50, _⟩ => ⟨S524288x256, .f32⟩
  | .hbm, ⟨51, _⟩ => ⟨S_, .f32⟩
  | .hbm, ⟨52, _⟩ => ⟨S524288x256, .f32⟩
  | .hbm, ⟨53, _⟩ => ⟨S524288x256, .f32⟩
  | .hbm, ⟨54, _⟩ => ⟨S524288x128, .f32⟩
  | .hbm, ⟨55, _⟩ => ⟨S1x128, .f32⟩
  | .hbm, ⟨56, _⟩ => ⟨S524288x128, .f32⟩
  | .hbm, ⟨57, _⟩ => ⟨S524288x128, .f32⟩
  | .hbm, ⟨58, _⟩ => ⟨S1x128, .f32⟩
  | .hbm, ⟨59, _⟩ => ⟨S524288x128, .f32⟩
  | .hbm, ⟨60, _⟩ => ⟨S524288x128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S524288x128, .f32⟩
  | .hbm, ⟨67, _⟩ => ⟨S524288x128, .f32⟩
  | .hbm, ⟨68, _⟩ => ⟨S1x128, .f32⟩
  | .hbm, ⟨69, _⟩ => ⟨S524288x128, .f32⟩
  | .hbm, ⟨70, _⟩ => ⟨S524288x128, .f32⟩
  | .hbm, ⟨71, _⟩ => ⟨S1x128, .f32⟩
  | .hbm, ⟨72, _⟩ => ⟨S524288x128, .f32⟩
  | .hbm, ⟨73, _⟩ => ⟨S524288x128, .f32⟩
  | .hbm, ⟨74, _⟩ => ⟨S_, .f32⟩
  | .hbm, ⟨75, _⟩ => ⟨S524288x128, .f32⟩
  | .hbm, ⟨76, _⟩ => ⟨S524288x128, .f32⟩
  | _, _ => ⟨S4096x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S_S4096x128x128 : S_.BroadcastsInDim S4096x128x128 (![] : Fin 0 → Fin S4096x128x128.rank)
  reducesTo_S4096x128x128_S4096x128_d2 : S4096x128x128.ReducesTo [2] S4096x128
  h_S_ : 0 < S_.numel
  bcast_S_S4096x128 : S_.BroadcastsInDim S4096x128 (![] : Fin 0 → Fin S4096x128.rank)
  bcast_S4096x128_S4096x128x1_0_1 : S4096x128.BroadcastsInDim S4096x128x1 (![0, 1] : Fin 2 → Fin S4096x128x1.rank)
  bcast_S4096x128x1_S4096x128x128_0_1_2 : S4096x128x1.BroadcastsInDim S4096x128x128 (![0, 1, 2] : Fin 3 → Fin S4096x128x128.rank)
  bcast_S4096x128_S4096x1x128_0_2 : S4096x128.BroadcastsInDim S4096x1x128 (![0, 2] : Fin 2 → Fin S4096x1x128.rank)
  bcast_S4096x1x128_S4096x128x128_0_1_2 : S4096x1x128.BroadcastsInDim S4096x128x128 (![0, 1, 2] : Fin 3 → Fin S4096x128x128.rank)
  shapeCasts_S4096x128x64_S524288x64 : S4096x128x64.ShapeCasts S524288x64
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S256 : S_.BroadcastsInDim S256 (![] : Fin 0 → Fin S256.rank)
  bcast_S_S524288x256 : S_.BroadcastsInDim S524288x256 (![] : Fin 0 → Fin S524288x256.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S128 : S_.BroadcastsInDim S128 (![] : Fin 0 → Fin S128.rank)
  bcast_S_S524288x128 : S_.BroadcastsInDim S524288x128 (![] : Fin 0 → Fin S524288x128.rank)
  dot_S4096x128x128_S4096x128x64_S4096x128x64_2_1_1_2_0_0_wf : DotDims.WF S4096x128x128 S4096x128x64 S4096x128x64 [2] [1] [1] [2] [0] [0]
  dot_S524288x64_S64x256_S524288x256_1_0_0_1_n_n_wf : DotDims.WF S524288x64 S64x256 S524288x256 [1] [0] [0] [1] [] []
  dot_S524288x256_S256x128_S524288x128_1_0_0_1_n_n_wf : DotDims.WF S524288x256 S256x128 S524288x128 [1] [0] [0] [1] [] []

variable [Facts₀]

def dot_S4096x128x128_S4096x128x64_S4096x128x64_2_1_1_2_0_0 : DotDims S4096x128x128 S4096x128x64 S4096x128x64 where
  lhsContracting := [2]
  rhsContracting := [1]
  lhsNonContracting := [1]
  rhsNonContracting := [2]
  lhsBatch := [0]
  rhsBatch := [0]
  wf := dot_S4096x128x128_S4096x128x64_S4096x128x64_2_1_1_2_0_0_wf
def dot_S524288x64_S64x256_S524288x256_1_0_0_1_n_n : DotDims S524288x64 S64x256 S524288x256 where
  lhsContracting := [1]
  rhsContracting := [0]
  lhsNonContracting := [0]
  rhsNonContracting := [1]
  lhsBatch := []
  rhsBatch := []
  wf := dot_S524288x64_S64x256_S524288x256_1_0_0_1_n_n_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf

class Facts : Prop extends Facts₀ where

variable [Facts]
-- ==== Proof.Spec.lean ====
/-
  The two programs of this certificate as index-by-index functions of their argument arrays, on the extended reals.

  The layer is a normalised graph propagation followed by a two-layer perceptron with batch normalisation folded in.
  For a batch of graphs, `A = [a ≥ 0.1]` is the 0/1 adjacency, `d b n = ∑ m, A b n m` the degree of node `n`, and the
  propagated features are `D^(-1/2) A D^(-1/2) v`. One program multiplies `v` by `d^(-1/2)` on the column index before
  the product with `A` and by `d^(-1/2)` on the row index after it, with `d^(-1/2)` spelt `rsqrt d`; the other scales
  the entries of `A` on both sides first, with `d^(-1/2)` spelt `d ^ (-1/2)`. The normalisation
  `((y + b) - rm) * rsqrt (rv + ε) * g + be` of the one is the affine map `y * s + t` of the other, with
  `s = g * rsqrt (rv + ε)` and `t = be + (b - rm) * s`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Arrays of extended reals over literal shapes. -/
abbrev A3 (a b c : Nat) := (⟨3, ![a, b, c]⟩ : Shape).Idx → EReal
abbrev A2 (a b : Nat) := (⟨2, ![a, b]⟩ : Shape).Idx → EReal
abbrev A1 (a : Nat) := (⟨1, ![a]⟩ : Shape).Idx → EReal

/-- The threshold `0.1` (its binary32 value), the exponent `-1/2`, and the variance offset `ε` (binary32 `1e-5`). -/
abbrev thr : EReal := Ideal.ofBits .f32 0x3DCCCCCD#32
abbrev negHalf : EReal := Ideal.ofBits .f32 0xBF000000#32
abbrev eps : EReal := Ideal.ofBits .f32 0x3727C5AC#32

variable {B : Nat}

/-- The thresholded adjacency: `1` where the entry is at least the threshold, `0` elsewhere. -/
def adj (a : A3 B 128 128) : A3 B 128 128 :=
  fun i => (((Ideal.cmp .oge (a i) thr).toNat : ℝ) : EReal)

/-- The degree of node `n` of graph `b`: the sum of row `n` of the adjacency. -/
def deg (A : A3 B 128 128) (b : Fin B) (n : Fin 128) : EReal := ∑ m : Fin 128, A (ix3 b n m)

/-- Propagation, scaling the features before the product and the result after it. -/
def propK (A : A3 B 128 128) (v : A3 B 128 64) (b : Fin B) (n : Fin 128) (c : Fin 64) : EReal :=
  (∑ m : Fin 128, A (ix3 b n m) * (v (ix3 b m c) * Ideal.rsqrt (deg A b m))) * Ideal.rsqrt (deg A b n)

/-- Propagation, scaling the adjacency's entries on both sides first. -/
def propR (A : A3 B 128 128) (v : A3 B 128 64) (b : Fin B) (n : Fin 128) (c : Fin 64) : EReal :=
  ∑ m : Fin 128, ((Ideal.pow (deg A b n) negHalf * A (ix3 b n m)) * Ideal.pow (deg A b m) negHalf) * v (ix3 b m c)

/-- A row vector times a matrix. -/
def lin {K J : Nat} (x : Fin K → EReal) (W : A2 K J) (j : Fin J) : EReal := ∑ k : Fin K, x k * W (ix2 k j)

/-- The folded scale and shift of a normalisation. -/
def scaleK (g rv : EReal) : EReal := g * Ideal.rsqrt (rv + eps)
def shiftK (be b rm s : EReal) : EReal := be + (b - rm) * s

/-- The affine form followed by the rectifier, and the normalisation as written followed by the rectifier. -/
def actK (y s t : EReal) : EReal := max (y * s + t) 0
def actR (y b rm rv g be : EReal) : EReal := max ((((y + b) - rm) * Ideal.rsqrt (rv + eps)) * g + be) 0

/-- One block's result from the blocks of the adjacency and the features, the weights, and the folded scales and shifts. -/
def blockK (A : A3 B 128 128) (v : A3 B 128 64) (W1 : A2 64 256) (s1 t1 : A1 256) (W2 : A2 256 128) (s2 t2 : A1 128)
    (b : Fin B) (n : Fin 128) (k : Fin 128) : EReal :=
  actK (lin (fun j : Fin 256 => actK (lin (fun c : Fin 64 => propK A v b n c) W1 j) (s1 (ix1 j)) (t1 (ix1 j))) W2 k)
    (s2 (ix1 k)) (t2 (ix1 k))

/-- The first arrangement, from the argument arrays. -/
def GK (a : A3 B 128 128) (v : A3 B 128 64) (W1 : A2 64 256) (b1 g1 be1 rm1 rv1 : A1 256) (W2 : A2 256 128)
    (b2 g2 be2 rm2 rv2 : A1 128) (b : Fin B) (n : Fin 128) (k : Fin 128) : EReal :=
  blockK (adj a) v W1 (fun i => scaleK (g1 i) (rv1 i)) (fun i => shiftK (be1 i) (b1 i) (rm1 i) (scaleK (g1 i) (rv1 i))) W2
    (fun i => scaleK (g2 i) (rv2 i)) (fun i => shiftK (be2 i) (b2 i) (rm2 i) (scaleK (g2 i) (rv2 i))) b n k

/-- The second arrangement, from the argument arrays. -/
def GR (a : A3 B 128 128) (v : A3 B 128 64) (W1 : A2 64 256) (b1 g1 be1 rm1 rv1 : A1 256) (W2 : A2 256 128)
    (b2 g2 be2 rm2 rv2 : A1 128) (b : Fin B) (n : Fin 128) (k : Fin 128) : EReal :=
  actR (lin (fun j : Fin 256 =>
      actR (lin (fun c : Fin 64 => propR (adj a) v b n c) W1 j) (b1 (ix1 j)) (rm1 (ix1 j)) (rv1 (ix1 j)) (g1 (ix1 j)) (be1 (ix1 j))) W2 k)
    (b2 (ix1 k)) (rm2 (ix1 k)) (rv2 (ix1 k)) (g2 (ix1 k)) (be2 (ix1 k))

/-- Row `r` of the flattened result is node `r % 128` of graph `r / 128`. -/
def rowB (r : Fin 524288) : Fin 4096 := ⟨r.val / 128, by have := r.isLt; omega⟩
def rowN (r : Fin 524288) : Fin 128 := ⟨r.val % 128, Nat.mod_lt _ (by decide)⟩

/-- Each arrangement as the flattened `[524288, 128]` result array. -/
def GKarr (a : A3 4096 128 128) (v : A3 4096 128 64) (W1 : A2 64 256) (b1 g1 be1 rm1 rv1 : A1 256) (W2 : A2 256 128)
    (b2 g2 be2 rm2 rv2 : A1 128) : A2 524288 128 :=
  fun i => GK a v W1 b1 g1 be1 rm1 rv1 W2 b2 g2 be2 rm2 rv2 (rowB (i 0)) (rowN (i 0)) (i 1)
def GRarr (a : A3 4096 128 128) (v : A3 4096 128 64) (W1 : A2 64 256) (b1 g1 be1 rm1 rv1 : A1 256) (W2 : A2 256 128)
    (b2 g2 be2 rm2 rv2 : A1 128) : A2 524288 128 :=
  fun i => GR a v W1 b1 g1 be1 rm1 rv1 W2 b2 g2 be2 rm2 rv2 (rowB (i 0)) (rowN (i 0)) (i 1)

/-- What the two arrangements' equality needs of the arguments: the normalisations' parameters are real numbers, the
    running variances are not negative (so `rv + ε` is positive and its reciprocal root a positive real), and every node has
    at least one neighbour (so its degree is a positive real, on which `rsqrt` and the power `-1/2` agree). -/
structure Domain (a : A3 B 128 128) (b1 g1 be1 rm1 rv1 : A1 256) (b2 g2 be2 rm2 rv2 : A1 128) : Prop where
  b1_real : ∀ i, ∃ r : ℝ, b1 i = (r : EReal)
  g1_real : ∀ i, ∃ r : ℝ, g1 i = (r : EReal)
  be1_real : ∀ i, ∃ r : ℝ, be1 i = (r : EReal)
  rm1_real : ∀ i, ∃ r : ℝ, rm1 i = (r : EReal)
  rv1_real : ∀ i, ∃ r : ℝ, rv1 i = (r : EReal)
  b2_real : ∀ i, ∃ r : ℝ, b2 i = (r : EReal)
  g2_real : ∀ i, ∃ r : ℝ, g2 i = (r : EReal)
  be2_real : ∀ i, ∃ r : ℝ, be2 i = (r : EReal)
  rm2_real : ∀ i, ∃ r : ℝ, rm2 i = (r : EReal)
  rv2_real : ∀ i, ∃ r : ℝ, rv2 i = (r : EReal)
  rv1_nonneg : ∀ i, 0 ≤ rv1 i
  rv2_nonneg : ∀ i, 0 ≤ rv2 i
  deg_pos : ∀ (b : Fin B) (n : Fin 128), 0 < deg (adj a) b n

end Cert.Spec

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.KPayload.lean ====
/-
  The kernel body's arithmetic read at an index. One block holds 64 graphs; the body thresholds the block of `a`,
  sums each row to the node's degree, takes its reciprocal square root, scales the block of `v` by it on the
  column index, multiplies by the 0/1 adjacency, scales the product on the row index, flattens the 64 × 128 nodes
  to 8192 rows, and runs the two affine-normalised layers with their rectifiers on the rows.
-/
import proofs.«120561_j61967788146761_2_alg».proof.Proof.Gen.KernelIdeal.Skeleton
import proofs.«120561_j61967788146761_2_alg».proof.Proof.Spec
import proofs.«120561_j61967788146761_2_alg».proof.Proof.LibRegroup
import proofs.«120561_j61967788146761_2_alg».proof.Proof.LibContract
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec

/-- A one-bit word widened to 32 bits and read as a signed integer is the bit. -/
theorem bit_toInt (w : BitVec 1) : (((w.setWidth 32).toInt : ℤ) : ℝ) = ((w.toNat : ℕ) : ℝ) := by
  have h : ∀ w : BitVec 1, (w.setWidth 32).toInt = (w.toNat : ℤ) := by decide
  rw [h w]; simp

/-- The body's 0/1 adjacency of a block is the specification's. -/
theorem adj_apply (x0 : Vec Ideal S64x128x128 .f32) (i : S64x128x128.Idx) :
    (sitofp (F := Ideal) .f32 (extui 32 (cmpf (F := Ideal) .oge x0 (broadcast S64x128x128 (Scalar.ofBits (F := Ideal) .f32 0x3DCCCCCD#32))) natLt_1_32) : FVec Ideal S64x128x128 .f32) i
      = adj x0 i := by
  show (((((Ideal.cmp .oge (x0 i) thr).setWidth 32).toInt : ℤ) : ℝ) : EReal) = (((Ideal.cmp .oge (x0 i) thr).toNat : ℝ) : EReal)
  rw [bit_toInt]

/-- The lane sum of a rank-3 array over its last axis, into the zero accumulator, at `(b, n)`. -/
theorem rowsum_apply (src : FVec Ideal S64x128x128 .f32) (h : S64x128x128.Reduces [2] S64x128) (hφ : FKind.Formats .f32)
    (hacc : (0x00000000#32 : BitVec 32) = 0x00000000#32) (b : Fin 64) (n : Fin 128) :
    multiReduction .add [2] S64x128 src 0x00000000#32 h hφ hacc (ix2 b n) = ∑ m : Fin 128, src (ix3 b n m) := by
  refine (Ideal.multiReduction_add_single src 0x00000000#32 h hφ hacc (ix2 b n)).trans ?_
  refine Finset.sum_congr rfl fun m _ => congrArg src (funext fun c => Fin.ext ?_)
  rw [h.lift_val]
  match c with
  | ⟨0, _⟩ => rfl
  | ⟨1, _⟩ => rfl
  | ⟨2, _⟩ => rfl

/-- A `[64, 128]` array given a trailing unit axis and broadcast along 64 columns reads, at `(b, m, c)`, entry `(b, m)`. -/
theorem col_apply (y : FVec Ideal S64x128 .f32) (b : Fin 64) (m : Fin 128) (c : Fin 64) :
    broadcastTo S64x128x64 (shapeCast S64x128x1 y shapeCasts_S64x128_S64x128x1) broadcasts_S64x128x1_S64x128x64 (ix3 b m c) = y (ix2 b m) :=
  (Regroup.broadcastTo_trailingUnit_apply _ broadcasts_S64x128x1_S64x128x64 b m c).trans
    (Regroup.shapeCast_trailingUnit_apply y shapeCasts_S64x128_S64x128x1 b m 0)

/-- A `[256]` vector as a row broadcast down 8192 rows reads, at `(r, j)`, entry `j`. -/
theorem row256_apply (y : FVec Ideal S256 .f32) (r : Fin 8192) (j : Fin 256) :
    broadcastTo S8192x256 (shapeCast S1x256 y shapeCasts_S256_S1x256) broadcasts_S1x256_S8192x256 (ix2 r j) = y (ix1 j) :=
  (broadcastTo_1b_ab_apply _ broadcasts_S1x256_S8192x256 r j).trans (shapeCast_a_1a_apply y shapeCasts_S256_S1x256 0 j)

/-- A `[128]` vector as a row broadcast down 8192 rows reads, at `(r, k)`, entry `k`. -/
theorem row128_apply (y : FVec Ideal S128 .f32) (r : Fin 8192) (k : Fin 128) :
    broadcastTo S8192x128 (shapeCast S1x128 y shapeCasts_S128_S1x128) broadcasts_S1x128_S8192x128 (ix2 r k) = y (ix1 k) :=
  (broadcastTo_1b_ab_apply _ broadcasts_S1x128_S8192x128 r k).trans (shapeCast_a_1a_apply y shapeCasts_S128_S1x128 0 k)

abbrev Dbmm := dot_S64x128x128_S64x128x64_S64x128x64_2_1_1_2_0_0
abbrev Dmm1 := dot_S8192x64_S64x256_S8192x256_1_0_0_1_n_n
abbrev Dmm2 := dot_S8192x256_S256x128_S8192x128_1_0_0_1_n_n

theorem bmm_l0 (i : S64x128x64.Idx) (q : Dbmm.contr.Idx) : (Dbmm.lhsIdx i q 0).val = (i 0).val := by
  unfold DotDims.lhsIdx
  rw [dif_pos (show (0 : Fin S64x128x128.rank) ∈ Dbmm.lhsBatch by decide)]
  rfl
theorem bmm_l1 (i : S64x128x64.Idx) (q : Dbmm.contr.Idx) : (Dbmm.lhsIdx i q 1).val = (i 1).val := by
  unfold DotDims.lhsIdx
  rw [dif_neg (show ¬(1 : Fin S64x128x128.rank) ∈ Dbmm.lhsBatch by decide), dif_pos (show (1 : Fin S64x128x128.rank) ∈ Dbmm.lhsNonContracting by decide)]
  rfl
theorem bmm_l2 (i : S64x128x64.Idx) (q : Dbmm.contr.Idx) : (Dbmm.lhsIdx i q 2).val = (q ⟨0, by decide⟩).val :=
  Dbmm.lhsIdx_val_of_single rfl i q
theorem bmm_r0 (i : S64x128x64.Idx) (q : Dbmm.contr.Idx) : (Dbmm.rhsIdx i q 0).val = (i 0).val := by
  unfold DotDims.rhsIdx
  rw [dif_pos (show (0 : Fin S64x128x64.rank) ∈ Dbmm.rhsBatch by decide)]
  rfl
theorem bmm_r1 (i : S64x128x64.Idx) (q : Dbmm.contr.Idx) : (Dbmm.rhsIdx i q 1).val = (q ⟨0, by decide⟩).val :=
  Dbmm.rhsIdx_val_of_single rfl i q
theorem bmm_r2 (i : S64x128x64.Idx) (q : Dbmm.contr.Idx) : (Dbmm.rhsIdx i q 2).val = (i 2).val := by
  unfold DotDims.rhsIdx
  rw [dif_neg (show ¬(2 : Fin S64x128x64.rank) ∈ Dbmm.rhsBatch by decide), dif_pos (show (2 : Fin S64x128x64.rank) ∈ Dbmm.rhsNonContracting by decide)]
  rfl

/-- The per-graph product of a `[64, 128, 128]` by a `[64, 128, 64]` array into the zero accumulator, at `(b, n, c)`:
    the sum over the shared node index. -/
theorem bmm_apply (l : FVec Ideal S64x128x128 .bf16) (r : FVec Ideal S64x128x64 .bf16) (b : Fin 64) (n : Fin 128) (c : Fin 64) :
    matmul Dbmm none l r (constant S64x128x64 .f32 0x00000000#32) (ix3 b n c) = ∑ m : Fin 128, l (ix3 b n m) * r (ix3 b m c) := by
  refine (Ideal.matmul_constant_zero_apply Dbmm none l r (ix3 b n c)).trans ?_
  rw [← Equiv.sum_comp (contrEquiv1 Dbmm 128 rfl rfl).symm]
  refine Finset.sum_congr rfl fun k _ => ?_
  have hk := contrEquiv1_symm_val Dbmm 128 rfl rfl k
  have el : Dbmm.lhsIdx (ix3 b n c) ((contrEquiv1 Dbmm 128 rfl rfl).symm k) = ix3 b n k := funext fun a => Fin.ext (by
    match a with
    | ⟨0, _⟩ => exact bmm_l0 _ _
    | ⟨1, _⟩ => exact bmm_l1 _ _
    | ⟨2, _⟩ => exact (bmm_l2 _ _).trans hk)
  have er : Dbmm.rhsIdx (ix3 b n c) ((contrEquiv1 Dbmm 128 rfl rfl).symm k) = ix3 b k c := funext fun a => Fin.ext (by
    match a with
    | ⟨0, _⟩ => exact bmm_r0 _ _
    | ⟨1, _⟩ => exact (bmm_r1 _ _).trans hk
    | ⟨2, _⟩ => exact bmm_r2 _ _)
  rw [el, er]

/-- The product of the `[8192, 64]` rows by the `[64, 256]` weights into the zero accumulator, at `(r, j)`. -/
theorem mm1_apply (l : FVec Ideal S8192x64 .bf16) (w : FVec Ideal S64x256 .bf16) (r : Fin 8192) (j : Fin 256) :
    matmul Dmm1 none l w (constant S8192x256 .f32 0x00000000#32) (ix2 r j) = ∑ c : Fin 64, l (ix2 r c) * w (ix2 c j) := by
  refine (Ideal.matmul_constant_zero_apply Dmm1 none l w (ix2 r j)).trans ?_
  refine Contract2.sum_contr_eq_sum_fin Dmm1 rfl rfl rfl rfl (fun i q => ?_) (fun i q => ?_) l w (ix2 r j)
  · unfold DotDims.lhsIdx
    rw [dif_neg (show ¬(0 : Fin S8192x64.rank) ∈ Dmm1.lhsBatch by decide), dif_pos (show (0 : Fin S8192x64.rank) ∈ Dmm1.lhsNonContracting by decide)]
    rfl
  · unfold DotDims.rhsIdx
    rw [dif_neg (show ¬(1 : Fin S64x256.rank) ∈ Dmm1.rhsBatch by decide), dif_pos (show (1 : Fin S64x256.rank) ∈ Dmm1.rhsNonContracting by decide)]
    rfl

/-- The product of the `[8192, 256]` rows by the `[256, 128]` weights into the zero accumulator, at `(r, k)`. -/
theorem mm2_apply (l : FVec Ideal S8192x256 .bf16) (w : FVec Ideal S256x128 .bf16) (r : Fin 8192) (k : Fin 128) :
    matmul Dmm2 none l w (constant S8192x128 .f32 0x00000000#32) (ix2 r k) = ∑ j : Fin 256, l (ix2 r j) * w (ix2 j k) := by
  refine (Ideal.matmul_constant_zero_apply Dmm2 none l w (ix2 r k)).trans ?_
  refine Contract2.sum_contr_eq_sum_fin Dmm2 rfl rfl rfl rfl (fun i q => ?_) (fun i q => ?_) l w (ix2 r k)
  · unfold DotDims.lhsIdx
    rw [dif_neg (show ¬(0 : Fin S8192x256.rank) ∈ Dmm2.lhsBatch by decide), dif_pos (show (0 : Fin S8192x256.rank) ∈ Dmm2.lhsNonContracting by decide)]
    rfl
  · unfold DotDims.rhsIdx
    rw [dif_neg (show ¬(1 : Fin S256x128.rank) ∈ Dmm2.rhsBatch by decide), dif_pos (show (1 : Fin S256x128.rank) ∈ Dmm2.rhsNonContracting by decide)]
    rfl

/-! ## The body's stages -/

variable (x0 : Vec Ideal S64x128x128 .f32) (x1 : Vec Ideal S64x128x64 .f32) (x2 : Vec Ideal S64x256 .f32)
  (x3 x4 : Vec Ideal S256 .f32) (x5 : Vec Ideal S256x128 .f32) (x6 x7 : Vec Ideal S128 .f32)

/-- The block's 0/1 adjacency. -/
def sA : FVec Ideal S64x128x128 .f32 :=
  sitofp (F := Ideal) .f32 (extui 32 (cmpf (F := Ideal) .oge x0 (broadcast S64x128x128 (Scalar.ofBits (F := Ideal) .f32 0x3DCCCCCD#32))) natLt_1_32)
/-- The reciprocal square roots of the degrees. -/
def sD : FVec Ideal S64x128 .f32 :=
  rsqrt (multiReduction .add [2] S64x128 (sA x0) 0x00000000#32 reduces_S64x128x128_S64x128 (.inl rfl) rfl)
/-- The same along 64 feature columns. -/
def sDc : FVec Ideal S64x128x64 .f32 :=
  broadcastTo S64x128x64 (shapeCast S64x128x1 (sD x0) shapeCasts_S64x128_S64x128x1) broadcasts_S64x128x1_S64x128x64
/-- The propagated features of the block. -/
def sH : FVec Ideal S64x128x64 .f32 :=
  mulf (matmul Dbmm none (truncf .bf16 (sA x0) bitsLt_bf16_f32) (truncf .bf16 (mulf x1 (sDc x0)) bitsLt_bf16_f32)
    (constant S64x128x64 .f32 0x00000000#32)) (sDc x0)
/-- The block's nodes as 8192 rows. -/
def sX : FVec Ideal S8192x64 .bf16 :=
  truncf .bf16 (shapeCast S8192x64 (sH x0 x1) shapeCasts_S64x128x64_S8192x64) bitsLt_bf16_f32
/-- The first layer before and after its affine map and rectifier. -/
def sY1 : FVec Ideal S8192x256 .f32 :=
  matmul Dmm1 none (sX x0 x1) (truncf .bf16 x2 bitsLt_bf16_f32) (constant S8192x256 .f32 0x00000000#32)
def sR1 : FVec Ideal S8192x256 .f32 :=
  maximumf (addf (mulf (sY1 x0 x1 x2)
      (broadcastTo S8192x256 (shapeCast S1x256 (shapeCast S256 x3 shapeCasts_S256_S256) shapeCasts_S256_S1x256) broadcasts_S1x256_S8192x256))
      (broadcastTo S8192x256 (shapeCast S1x256 (shapeCast S256 x4 shapeCasts_S256_S256) shapeCasts_S256_S1x256) broadcasts_S1x256_S8192x256))
    (broadcast S8192x256 (Scalar.ofBits (F := Ideal) .f32 0x00000000#32))
/-- The second layer's product. -/
def sY2 : FVec Ideal S8192x128 .f32 :=
  matmul Dmm2 none (truncf .bf16 (sR1 x0 x1 x2 x3 x4) bitsLt_bf16_f32) (truncf .bf16 x5 bitsLt_bf16_f32) (constant S8192x128 .f32 0x00000000#32)

/-- The generated payloads are these stages. -/
theorem pay2_eq : k0_pay2 (F := Ideal) x0 x1 x2 x3 x4 x5 = sY2 x0 x1 x2 x3 x4 x5 := rfl

/-- Row `b * 128 + n` of the 8192. -/
def rowOf (b : Fin 64) (n : Fin 128) : Fin 8192 := ⟨b.val * 128 + n.val, by have := b.isLt; have := n.isLt; omega⟩

theorem sA_apply (i : S64x128x128.Idx) : sA x0 i = adj x0 i := adj_apply x0 i

theorem sD_apply (b : Fin 64) (n : Fin 128) : sD x0 (ix2 b n) = Ideal.rsqrt (deg (adj x0) b n) :=
  congrArg Ideal.rsqrt ((rowsum_apply (sA x0) reduces_S64x128x128_S64x128 (.inl rfl) rfl b n).trans
    (Finset.sum_congr rfl fun m _ => sA_apply x0 _))

theorem sDc_apply (b : Fin 64) (m : Fin 128) (c : Fin 64) : sDc x0 (ix3 b m c) = Ideal.rsqrt (deg (adj x0) b m) :=
  (col_apply (sD x0) b m c).trans (sD_apply x0 b m)

theorem sH_apply (b : Fin 64) (n : Fin 128) (c : Fin 64) : sH x0 x1 (ix3 b n c) = propK (adj x0) x1 b n c := by
  show matmul Dbmm none (truncf .bf16 (sA x0) bitsLt_bf16_f32) (truncf .bf16 (mulf x1 (sDc x0)) bitsLt_bf16_f32)
    (constant S64x128x64 .f32 0x00000000#32) (ix3 b n c) * sDc x0 (ix3 b n c) = _
  rw [bmm_apply, sDc_apply]
  unfold propK
  refine congrArg (· * _) (Finset.sum_congr rfl fun m _ => ?_)
  show sA x0 (ix3 b n m) * (x1 (ix3 b m c) * sDc x0 (ix3 b m c)) = _
  rw [sA_apply, sDc_apply]

theorem sX_apply (b : Fin 64) (n : Fin 128) (c : Fin 64) : sX x0 x1 (ix2 (rowOf b n) c) = propK (adj x0) x1 b n c :=
  (Regroup.shapeCast_mergeFirst_apply (sH x0 x1) shapeCasts_S64x128x64_S8192x64 (rowOf b n) c b n rfl).trans (sH_apply x0 x1 b n c)

theorem sY1_apply (b : Fin 64) (n : Fin 128) (j : Fin 256) :
    sY1 x0 x1 x2 (ix2 (rowOf b n) j) = lin (fun c : Fin 64 => propK (adj x0) x1 b n c) x2 j := by
  unfold sY1
  rw [mm1_apply]
  unfold lin
  refine Finset.sum_congr rfl fun c _ => ?_
  show sX x0 x1 (ix2 (rowOf b n) c) * x2 (ix2 c j) = _
  rw [sX_apply]

theorem sR1_apply (b : Fin 64) (n : Fin 128) (j : Fin 256) :
    sR1 x0 x1 x2 x3 x4 (ix2 (rowOf b n) j)
      = actK (lin (fun c : Fin 64 => propK (adj x0) x1 b n c) x2 j) (x3 (ix1 j)) (x4 (ix1 j)) := by
  unfold sR1
  rw [shapeCast_self, shapeCast_self]
  show max (sY1 x0 x1 x2 (ix2 (rowOf b n) j) * broadcastTo S8192x256 (shapeCast S1x256 x3 shapeCasts_S256_S1x256) broadcasts_S1x256_S8192x256 (ix2 (rowOf b n) j)
      + broadcastTo S8192x256 (shapeCast S1x256 x4 shapeCasts_S256_S1x256) broadcasts_S1x256_S8192x256 (ix2 (rowOf b n) j)) (Ideal.ofBits .f32 0x00000000#32) = _
  rw [row256_apply, row256_apply, sY1_apply, Ideal.ofBits_zero_f32]
  rfl

theorem sY2_apply (b : Fin 64) (n : Fin 128) (k : Fin 128) :
    sY2 x0 x1 x2 x3 x4 x5 (ix2 (rowOf b n) k)
      = lin (fun j : Fin 256 => actK (lin (fun c : Fin 64 => propK (adj x0) x1 b n c) x2 j) (x3 (ix1 j)) (x4 (ix1 j))) x5 k := by
  unfold sY2
  rw [mm2_apply]
  unfold lin
  refine Finset.sum_congr rfl fun j _ => ?_
  show sR1 x0 x1 x2 x3 x4 (ix2 (rowOf b n) j) * x5 (ix2 j k) = _
  rw [sR1_apply]
  rfl

/-- The last stage: the second affine map and rectifier on the rows, regrouped into graphs. -/
def sOut (y : FVec Ideal S8192x128 .f32) (s : FVec Ideal S128 .f32) : FVec Ideal S64x128x128 .f32 :=
  shapeCast S64x128x128 (maximumf (addf (mulf y
      (broadcastTo S8192x128 (shapeCast S1x128 s shapeCasts_S128_S1x128) broadcasts_S1x128_S8192x128))
      (broadcastTo S8192x128 (shapeCast S1x128 (shapeCast S128 x7 shapeCasts_S128_S128) shapeCasts_S128_S1x128) broadcasts_S1x128_S8192x128))
    (broadcast S8192x128 (Scalar.ofBits (F := Ideal) .f32 0x00000000#32))) shapeCasts_S8192x128_S64x128x128

theorem pay1_eq (y : FVec Ideal S8192x128 .f32) (s : FVec Ideal S128 .f32) : k0_pay1 (F := Ideal) y s x7 = sOut x7 y s := rfl
theorem pay3_eq : k0_pay3 (F := Ideal) x6 = x6 := shapeCast_self x6 shapeCasts_S128_S128

theorem sOut_apply (y : FVec Ideal S8192x128 .f32) (s : FVec Ideal S128 .f32) (b : Fin 64) (n k : Fin 128) :
    sOut x7 y s (ix3 b n k) = actK (y (ix2 (rowOf b n) k)) (s (ix1 k)) (x7 (ix1 k)) := by
  unfold sOut
  rw [shapeCast_self]
  refine (Regroup.shapeCast_splitFirst_apply _ shapeCasts_S8192x128_S64x128x128 b n k (rowOf b n) rfl).trans ?_
  show max (y (ix2 (rowOf b n) k) * broadcastTo S8192x128 (shapeCast S1x128 s shapeCasts_S128_S1x128) broadcasts_S1x128_S8192x128 (ix2 (rowOf b n) k)
      + broadcastTo S8192x128 (shapeCast S1x128 x7 shapeCasts_S128_S1x128) broadcasts_S1x128_S8192x128 (ix2 (rowOf b n) k)) (Ideal.ofBits .f32 0x00000000#32) = _
  rw [row128_apply, row128_apply, Ideal.ofBits_zero_f32]
  rfl

/-- THE BODY'S RESULT at `(b, n, k)` of its block: the specification's block function of the loaded blocks. -/
theorem pay_apply (b : Fin 64) (n k : Fin 128) :
    k0_pay1 (F := Ideal) (k0_pay2 x0 x1 x2 x3 x4 x5) (k0_pay3 x6) x7 (ix3 b n k) = blockK (adj x0) x1 x2 x3 x4 x5 x6 x7 b n k := by
  rw [pay2_eq, pay3_eq, pay1_eq, sOut_apply, sY2_apply]
  rfl

end Cert.KernelIdeal.Pay

end
-- ==== Proof.KValue.lean ====
/-
  What the kernel's program leaves in its result: block `t` of the region's output array is the body's block function
  of the input blocks at `t`; the blocks of graphs tile the `[4096, 128, 128]` array, so the array is the first
  arrangement of the specification over the argument arrays, with the folded scales and shifts computed before the
  region from the normalisations' parameters; the reshape after the region lays the graphs' nodes out as rows.
-/
import proofs.«120561_j61967788146761_2_alg».proof.Proof.Gen.KernelIdeal.Frame
import proofs.«120561_j61967788146761_2_alg».proof.Proof.KPayload
import proofs.«120561_j61967788146761_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo Cert.Spec
open Idealize.ShloMosaic.Pipeline (Dat Cfg Window)

variable (m : (ℓ : Loc nD τ sig) → Buf (Elt Ideal) ℓ) (ρ : Dev nD → PrngReg)

/-! ## The folded scales and shifts, as the region finds them -/

theorem V_s1 (c : Dev nD) : (V m c main_call0_v3 : S256.Idx → EReal)
    = fun i => scaleK (m ((c : Thread nD τ).loc main_arg4) i) (m ((c : Thread nD τ).loc main_arg7) i) := by
  show StableHlo.after hostOps0 (fun b => m (c, b)) (Proc.devRef .tc main_call0_v3) = _
  after_results
  rfl

set_option maxHeartbeats 1600000 in
theorem V_t1 (c : Dev nD) : (V m c main_call0_v6 : S256.Idx → EReal)
    = fun i => shiftK (m ((c : Thread nD τ).loc main_arg5) i) (m ((c : Thread nD τ).loc main_arg3) i) (m ((c : Thread nD τ).loc main_arg6) i)
        (scaleK (m ((c : Thread nD τ).loc main_arg4) i) (m ((c : Thread nD τ).loc main_arg7) i)) := by
  show StableHlo.after hostOps0 (fun b => m (c, b)) (Proc.devRef .tc main_call0_v6) = _
  after_results_simp
  rfl

set_option maxHeartbeats 1600000 in
theorem V_s2 (c : Dev nD) : (V m c main_call0_v10 : S128.Idx → EReal)
    = fun i => scaleK (m ((c : Thread nD τ).loc main_arg10) i) (m ((c : Thread nD τ).loc main_arg13) i) := by
  show StableHlo.after hostOps0 (fun b => m (c, b)) (Proc.devRef .tc main_call0_v10) = _
  after_results_simp
  rfl

set_option maxHeartbeats 1600000 in
theorem V_t2 (c : Dev nD) : (V m c main_call0_v13 : S128.Idx → EReal)
    = fun i => shiftK (m ((c : Thread nD τ).loc main_arg11) i) (m ((c : Thread nD τ).loc main_arg9) i) (m ((c : Thread nD τ).loc main_arg12) i)
        (scaleK (m ((c : Thread nD τ).loc main_arg10) i) (m ((c : Thread nD τ).loc main_arg13) i)) := by
  show StableHlo.after hostOps0 (fun b => m (c, b)) (Proc.devRef .tc main_call0_v13) = _
  after_results_simp
  rfl

/-! ## The grid: which block each window holds at a point -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Windows 0, 1 and 8 move along the graphs with the point; the weights' and the folded vectors' windows stay. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ win0_3.index t (0 : Fin 1) = 0 ∧ win0_4.index t (0 : Fin 1) = 0
    ∧ (win0_5.index t (0 : Fin 2) = 0 ∧ win0_5.index t (1 : Fin 2) = 0)
    ∧ win0_6.index t (0 : Fin 1) = 0 ∧ win0_7.index t (0 : Fin 1) = 0
    ∧ (win0_8.index t (0 : Fin 3) = t.val ∧ win0_8.index t (1 : Fin 3) = 0 ∧ win0_8.index t (2 : Fin 3) = 0) :=
  (by decide +kernel : ∀ t : Fin grid0.N, _)

/-- Graph `bb` of the block at point `t` is graph `t * 64 + bb` of the batch. -/
def gb (t : Fin cfg0.N) (bb : Fin 64) : Fin 4096 :=
  ⟨t.val * 64 + bb.val, by have ht : t.val < 64 := t.isLt; have := bb.isLt; omega⟩

theorem blk0_apply (c : Dev nD) (t : Fin cfg0.N) (bb : Fin 64) (n k : Fin 128) :
    iblk m c 0 t (ix3 bb n k) = V m c main_arg0 (ix3 (gb t bb) n k) := by
  obtain ⟨⟨e0, e1, e2⟩, -⟩ := idx_facts t
  show V m c main_arg0 (((cfg0.win 0).blk t).view.emb (ix3 bb n k)) = _
  refine congrArg _ (funext fun a => Fin.ext ?_)
  match a with
  | ⟨0, _⟩ => show win0_0.index t (0 : Fin 3) * 64 + 1 * bb.val = t.val * 64 + bb.val; omega
  | ⟨1, _⟩ => show win0_0.index t (1 : Fin 3) * 128 + 1 * n.val = n.val; omega
  | ⟨2, _⟩ => show win0_0.index t (2 : Fin 3) * 128 + 1 * k.val = k.val; omega

theorem blk1_apply (c : Dev nD) (t : Fin cfg0.N) (bb : Fin 64) (n : Fin 128) (k : Fin 64) :
    iblk m c 1 t (ix3 bb n k) = V m c main_arg1 (ix3 (gb t bb) n k) := by
  obtain ⟨-, ⟨e0, e1, e2⟩, -⟩ := idx_facts t
  show V m c main_arg1 (((cfg0.win 1).blk t).view.emb (ix3 bb n k)) = _
  refine congrArg _ (funext fun a => Fin.ext ?_)
  match a with
  | ⟨0, _⟩ => show win0_1.index t (0 : Fin 3) * 64 + 1 * bb.val = t.val * 64 + bb.val; omega
  | ⟨1, _⟩ => show win0_1.index t (1 : Fin 3) * 128 + 1 * n.val = n.val; omega
  | ⟨2, _⟩ => show win0_1.index t (2 : Fin 3) * 64 + 1 * k.val = k.val; omega

theorem blk2_eq (c : Dev nD) (t : Fin cfg0.N) : (iblk m c 2 t : S64x256.Idx → EReal) = V m c main_arg2 := by
  obtain ⟨-, -, ⟨e0, e1⟩, -⟩ := idx_facts t
  funext y
  show V m c main_arg2 (((cfg0.win 2).blk t).view.emb y) = _
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 256 + 1 * (y 1).val = (y 1).val; omega

theorem blk3_eq (c : Dev nD) (t : Fin cfg0.N) : (iblk m c 3 t : S256.Idx → EReal) = V m c main_call0_v3 := by
  obtain ⟨-, -, -, e0, -⟩ := idx_facts t
  funext y
  show V m c main_call0_v3 (((cfg0.win 3).blk t).view.emb y) = _
  refine congrArg _ (funext fun a => Fin.ext ?_)
  match a with
  | ⟨0, _⟩ => show win0_3.index t (0 : Fin 1) * 256 + 1 * (y 0).val = (y 0).val; omega

theorem blk4_eq (c : Dev nD) (t : Fin cfg0.N) : (iblk m c 4 t : S256.Idx → EReal) = V m c main_call0_v6 := by
  obtain ⟨-, -, -, -, e0, -⟩ := idx_facts t
  funext y
  show V m c main_call0_v6 (((cfg0.win 4).blk t).view.emb y) = _
  refine congrArg _ (funext fun a => Fin.ext ?_)
  match a with
  | ⟨0, _⟩ => show win0_4.index t (0 : Fin 1) * 256 + 1 * (y 0).val = (y 0).val; omega

theorem blk5_eq (c : Dev nD) (t : Fin cfg0.N) : (iblk m c 5 t : S256x128.Idx → EReal) = V m c main_arg8 := by
  obtain ⟨-, -, -, -, -, ⟨e0, e1⟩, -⟩ := idx_facts t
  funext y
  show V m c main_arg8 (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem blk6_eq (c : Dev nD) (t : Fin cfg0.N) : (iblk m c 6 t : S128.Idx → EReal) = V m c main_call0_v10 := by
  obtain ⟨-, -, -, -, -, -, e0, -⟩ := idx_facts t
  funext y
  show V m c main_call0_v10 (((cfg0.win 6).blk t).view.emb y) = _
  refine congrArg _ (funext fun a => Fin.ext ?_)
  match a with
  | ⟨0, _⟩ => show win0_6.index t (0 : Fin 1) * 128 + 1 * (y 0).val = (y 0).val; omega

theorem blk7_eq (c : Dev nD) (t : Fin cfg0.N) : (iblk m c 7 t : S128.Idx → EReal) = V m c main_call0_v13 := by
  obtain ⟨-, -, -, -, -, -, -, e0, -⟩ := idx_facts t
  funext y
  show V m c main_call0_v13 (((cfg0.win 7).blk t).view.emb y) = _
  refine congrArg _ (funext fun a => Fin.ext ?_)
  match a with
  | ⟨0, _⟩ => show win0_7.index t (0 : Fin 1) * 128 + 1 * (y 0).val = (y 0).val; omega

/-! ## A block of the output is the first arrangement over the argument arrays -/

/-- The block function sees the adjacency and the features only through one graph's rows. -/
theorem blockK_congr {B B' : Nat} (A : A3 B 128 128) (A' : A3 B' 128 128) (v : A3 B 128 64) (v' : A3 B' 128 64)
    (W1 : A2 64 256) (s1 t1 : A1 256) (W2 : A2 256 128) (s2 t2 : A1 128) (b : Fin B) (b' : Fin B')
    (hA : ∀ n k, A (ix3 b n k) = A' (ix3 b' n k)) (hv : ∀ n c, v (ix3 b n c) = v' (ix3 b' n c)) (n k : Fin 128) :
    blockK A v W1 s1 t1 W2 s2 t2 b n k = blockK A' v' W1 s1 t1 W2 s2 t2 b' n k := by
  unfold blockK propK deg
  simp only [hA, hv]

/-- The region's output array: the first arrangement over the argument arrays, graph by graph. -/
def G3 (c : Dev nD) : S4096x128x128.Idx → EReal := fun i =>
  GK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (i 0) (i 1) (i 2)

/-- WHAT POINT `t` WRITES BACK is block `t` of that array. -/
theorem flushed_eq (c : Dev nD) (t : Fin cfg0.N) :
    (dats m 0 c).flushed 8 t = ((cfg0.win 8).blk t).view.read (Elt Ideal) (G3 m c) := by
  show (cfg0.win 8).cut (grid0.coords t) ((dats m 0 c).after 8 t) = _
  rw [after0_8]
  unfold out0_8
  rw [View.canon_unit_zero hz3]
  simp only [View.ld_unit_zero (S := S64x128x128) hz3, View.ld_unit_zero (S := S64x128x64) hz3,
    View.ld_unit_zero (S := S64x256) hz2, View.ld_unit_zero (S := S256) hz1, View.ld_unit_zero (S := S256x128) hz2,
    View.ld_unit_zero (S := S128) hz1]
  funext j
  obtain ⟨bb, n, k, rfl⟩ : ∃ (bb : Fin 64) (n k : Fin 128), j = ix3 bb n k := ⟨j 0, j 1, j 2, eq_ix3 j⟩
  obtain ⟨-, -, -, -, -, -, -, -, ⟨e0, e1, e2⟩⟩ := idx_facts t
  have he : ((cfg0.win 8).blk t).view.emb (ix3 bb n k) = ix3 (gb t bb) n k := funext fun a => Fin.ext (by
    match a with
    | ⟨0, _⟩ => show win0_8.index t (0 : Fin 3) * 64 + 1 * bb.val = t.val * 64 + bb.val; omega
    | ⟨1, _⟩ => show win0_8.index t (1 : Fin 3) * 128 + 1 * n.val = n.val; omega
    | ⟨2, _⟩ => show win0_8.index t (2 : Fin 3) * 128 + 1 * k.val = k.val; omega)
  show k0_pay1 (F := Ideal) (k0_pay2 (iblk m c 0 t) (iblk m c 1 t) (iblk m c 2 t) (iblk m c 3 t) (iblk m c 4 t) (iblk m c 5 t))
      (k0_pay3 (iblk m c 6 t)) (iblk m c 7 t) (ix3 bb n k) = G3 m c (((cfg0.win 8).blk t).view.emb (ix3 bb n k))
  rw [he]
  refine (Pay.pay_apply (iblk m c 0 t) (iblk m c 1 t) (iblk m c 2 t) (iblk m c 3 t) (iblk m c 4 t) (iblk m c 5 t)
    (iblk m c 6 t) (iblk m c 7 t) bb n k).trans ?_
  rw [blk2_eq, blk3_eq, blk4_eq, blk5_eq, blk6_eq, blk7_eq, V_s1, V_t1, V_s2, V_t2, V_main_arg2, V_main_arg8]
  refine (blockK_congr _ (adj (m ((c : Thread nD τ).loc main_arg0))) _ (m ((c : Thread nD τ).loc main_arg1)) _ _ _ _ _ _ bb (gb t bb)
    (fun n' k' => ?_) (fun n' c' => ?_) n k).trans rfl
  · show adj (iblk m c 0 t) (ix3 bb n' k') = adj (m ((c : Thread nD τ).loc main_arg0)) (ix3 (gb t bb) n' k')
    unfold adj
    rw [blk0_apply, V_main_arg0]
  · rw [blk1_apply, V_main_arg1]

/-- An index of the array is in point `t`'s block iff each coordinate is in the block's range on its axis. -/
theorem mem_blk8 (t : Fin cfg0.N) (i : S4096x128x128.Idx) :
    i ∈ ((cfg0.win 8).blk t).view.set ↔ ∀ a : Fin 3, win0_8.index t a * S64x128x128.size a ≤ (i a).val
      ∧ (i a).val < win0_8.index t a * S64x128x128.size a + S64x128x128.size a := by
  show i ∈ ((View.whole main_call0_v14).slice (win0_8.rect t)).set ↔ _
  rw [View.set_slice_whole, Rect.mem_set_unit]
  exact Iff.rfl

/-- The 64 blocks of 64 graphs tile the 4096: graph `g` is in block `g / 64`. -/
theorem cover8 (i : S4096x128x128.Idx) :
    ∃ t : Fin cfg0.N, (cfg0.win 8).flush t = true ∧ i ∈ ((cfg0.win 8).blk t).view.set := by
  have h0 : (i 0).val < 4096 := (i 0).isLt
  have h1 : (i 1).val < 128 := (i 1).isLt
  have h2 : (i 2).val < 128 := (i 2).isLt
  have ht : (i 0).val / 64 < 64 := by omega
  obtain ⟨-, -, -, -, -, -, -, -, ⟨e0, e1, e2⟩⟩ := idx_facts (⟨(i 0).val / 64, ht⟩ : Fin cfg0.N)
  refine ⟨⟨(i 0).val / 64, ht⟩, flush0_8 _, ?_⟩
  rw [mem_blk8]
  intro a
  match a with
  | ⟨0, _⟩ =>
    show win0_8.index ⟨(i 0).val / 64, ht⟩ (0 : Fin 3) * 64 ≤ (i 0).val ∧ (i 0).val < win0_8.index ⟨(i 0).val / 64, ht⟩ (0 : Fin 3) * 64 + 64
    have e0' : win0_8.index ⟨(i 0).val / 64, ht⟩ (0 : Fin 3) = (i 0).val / 64 := e0
    omega
  | ⟨1, _⟩ =>
    show win0_8.index ⟨(i 0).val / 64, ht⟩ (1 : Fin 3) * 128 ≤ (i 1).val ∧ (i 1).val < win0_8.index ⟨(i 0).val / 64, ht⟩ (1 : Fin 3) * 128 + 128
    omega
  | ⟨2, _⟩ =>
    show win0_8.index ⟨(i 0).val / 64, ht⟩ (2 : Fin 3) * 128 ≤ (i 2).val ∧ (i 2).val < win0_8.index ⟨(i 0).val / 64, ht⟩ (2 : Fin 3) * 128 + 128
    omega

/-- THE OUTPUT ARRAY after the region. -/
theorem final8 (c : Dev nD) : (dats m 0 c).arrAt 8 cfg0.N = G3 m c :=
  (dats m 0 c).arrAt_eq_of_cover 8 (G3 m c) (fun t _ => flushed_eq m c t) cover8

/-! ## The reshape after the region, and the run -/

/-- The program's result: the reshape of the region's output array lays graph `r / 128`'s node `r % 128` out as row `r`. -/
theorem tail_eq (c : Dev nD) :
    (Pipeline.afterTail₀ cfgs (dats m) 0 (V0 m) [hostOps1] c main_v0 : S524288x128.Idx → EReal)
      = GKarr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Pipeline.afterTail₀
  show StableHlo.after hostOps1 _ (Proc.devRef .tc main_v0) = _
  after_results
  rw [(Pipeline.withArrays_arr spec0 launch0.win.arr_inj c _ _ 8).trans (final8 m c)]
  funext i
  obtain ⟨r, k, rfl⟩ : ∃ (r : Fin 524288) (k : Fin 128), i = ix2 r k := ⟨i 0, i 1, eq_ix2 i⟩
  show shapeCast S524288x128 (G3 m c) shapeCasts_S4096x128x128_S524288x128 (ix2 r k) = _
  refine (Regroup.shapeCast_mergeFirst_apply (G3 m c) shapeCasts_S4096x128x128_S524288x128 r k (rowB r) (rowN r) ?_).trans rfl
  show r.val = r.val / 128 * 128 + r.val % 128
  omega

/-- THE RUN: every weakly fair execution of the kernel's program ends with its result at the first arrangement of the
    specification over the argument arrays, the arguments unchanged. -/
theorem run : θ_run defs (onTc (τ := τ) (main (F := Ideal))) ⟨m, fun _ => 0, ρ⟩ fun r => ∀ c : Dev nD,
      r.2.mem ((c.tc : Thread nD τ).loc main_v0) = GKarr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 5).trans (((dats m 0 c).arrAt_in 5 rfl _).trans ((A_eq m c 5).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩)
    (run_main m ρ)

end Cert.KernelIdeal.KValue

end
-- ==== Proof.RefValue.lean ====
/-
  The reference program's result, read index by index, is the specification's second arrangement.

  The reference thresholds the adjacency, sums each row to a degree, raises the degree to the power `-1/2`, scales the
  adjacency's entries by that power on the row index and on the column index, multiplies by the features, flattens
  graphs and nodes into one row axis, and applies two linear layers, each followed by its normalisation as written
  (add the bias, subtract the running mean, multiply by the reciprocal root of the running variance plus `ε`, multiply
  by the scale, add the shift) and the rectifier. Each lemma below reads one stage of that chain at an index built from
  its coordinates; the last one is the statement.
-/
import proofs.«120561_j61967788146761_2_alg».proof.Proof.Gen.ReferenceIdeal.Read
import proofs.«120561_j61967788146761_2_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.Read Cert.Spec
open Idealize.ShloMosaic Idealize.ShloMosaic.ValueIdx Idealize.ShloMosaic.StableHlo Idealize.SL.Sem

/-- The thresholded and converted adjacency is the specification's `adj`. -/
theorem v2_eq (x0 : A3 4096 128 128) : val_main_v2 (F := Ideal) x0 = adj x0 := by
  funext i
  rw [val_main_v2_apply, val_main_v1_apply, val_main_v0_apply, val_main_cst_apply]
  rfl

/-- The row sum of the adjacency is the degree. -/
theorem v3_at (x0 : A3 4096 128 128) (b : Fin 4096) (n : Fin 128) :
    val_main_v3 (F := Ideal) x0 (ix2 b n) = deg (adj x0) b n := by
  rw [val_main_v3_apply, val_main_cst_0_apply, Ideal.ofBits_def, Ideal.ofBits_zero_f32, zero_add, v2_eq]
  unfold deg
  refine Finset.sum_congr rfl fun m _ => congrArg (adj x0) ?_
  exact funext fun a => Fin.ext (by match a with | ⟨0, _⟩ => rfl | ⟨1, _⟩ => rfl | ⟨2, _⟩ => rfl)

/-- The degree to the power `-1/2`. -/
theorem v5_at (x0 : A3 4096 128 128) (b : Fin 4096) (n : Fin 128) :
    val_main_v5 (F := Ideal) x0 (ix2 b n) = Ideal.pow (deg (adj x0) b n) negHalf := by
  rw [val_main_v5_apply, v3_at, val_main_v4_apply, val_main_cst_1_apply]
  rfl

/-- The adjacency's entry scaled by the power of the row's degree and by the power of the column's degree. -/
theorem v11_at (x0 : A3 4096 128 128) (b : Fin 4096) (n m : Fin 128) :
    val_main_v11 (F := Ideal) x0 (ix3 b n m)
      = (Ideal.pow (deg (adj x0) b n) negHalf * adj x0 (ix3 b n m)) * Ideal.pow (deg (adj x0) b m) negHalf := by
  have e1 : idx_main_v6 (idx_main_v7 (ix3 b n m)) = ix2 b n :=
    funext fun a => Fin.ext (by match a with | ⟨0, _⟩ => rfl | ⟨1, _⟩ => rfl)
  have e2 : idx_main_v9 (idx_main_v10 (ix3 b n m)) = ix2 b m :=
    funext fun a => Fin.ext (by match a with | ⟨0, _⟩ => rfl | ⟨1, _⟩ => rfl)
  rw [val_main_v11_apply, val_main_v8_apply, val_main_v7_apply, val_main_v6_apply, val_main_v10_apply,
    val_main_v9_apply, e1, e2, v5_at, v5_at, v2_eq]
  rfl

/-- The propagated features at graph `b`, node `n`, column `c`. -/
theorem v12_at (x0 : A3 4096 128 128) (x1 : A3 4096 128 64) (b : Fin 4096) (n : Fin 128) (c : Fin 64) :
    val_main_v12 (F := Ideal) x0 x1 (ix3 b n c) = propR (adj x0) x1 b n c := by
  rw [val_main_v12_apply]
  unfold propR
  refine Finset.sum_congr rfl fun m _ => ?_
  have el : lidx_main_v12 (ix3 b n c) m = ix3 b n m :=
    funext fun a => Fin.ext (by match a with | ⟨0, _⟩ => rfl | ⟨1, _⟩ => rfl | ⟨2, _⟩ => rfl)
  have er : ridx_main_v12 (ix3 b n c) m = ix3 b m c :=
    funext fun a => Fin.ext (by match a with | ⟨0, _⟩ => rfl | ⟨1, _⟩ => rfl | ⟨2, _⟩ => rfl)
  rw [el, er, v11_at]

/-- The flattened propagated features: row `r` is node `r % 128` of graph `r / 128`. -/
theorem v13_at (x0 : A3 4096 128 128) (x1 : A3 4096 128 64) (r : Fin 524288) (c : Fin 64) :
    val_main_v13 (F := Ideal) x0 x1 (ix2 r c) = propR (adj x0) x1 (rowB r) (rowN r) c := by
  have e : idx_main_v13 (ix2 r c) = ix3 (rowB r) (rowN r) c :=
    funext fun a => Fin.ext (by
      have hr : r.val < 524288 := r.isLt
      have hc : c.val < 64 := c.isLt
      match a with
      | ⟨0, _⟩ => show (r.val * 64 + c.val) / 8192 = r.val / 128; omega
      | ⟨1, _⟩ => show (r.val * 64 + c.val) / 64 % 128 = r.val % 128; omega
      | ⟨2, _⟩ => show (r.val * 64 + c.val) % 64 = c.val; omega)
  rw [val_main_v13_apply, e, v12_at]

/-- The first linear layer: row `r` of the flattened propagated features times the first weight matrix. -/
theorem v14_at (x0 : A3 4096 128 128) (x1 : A3 4096 128 64) (x2 : A2 64 256) (r : Fin 524288) (j : Fin 256) :
    val_main_v14 (F := Ideal) x0 x1 x2 (ix2 r j)
      = lin (fun c : Fin 64 => propR (adj x0) x1 (rowB r) (rowN r) c) x2 j := by
  rw [val_main_v14_apply]
  unfold lin
  refine Finset.sum_congr rfl fun c _ => ?_
  have el : lidx_main_v14 (ix2 r j) c = ix2 r c :=
    funext fun a => Fin.ext (by match a with | ⟨0, _⟩ => rfl | ⟨1, _⟩ => rfl)
  have er : ridx_main_v14 (ix2 r j) c = ix2 c j :=
    funext fun a => Fin.ext (by match a with | ⟨0, _⟩ => rfl | ⟨1, _⟩ => rfl)
  rw [el, er, v13_at]

/-- The first layer through its normalisation and rectifier. -/
theorem v33_at (x0 : A3 4096 128 128) (x1 : A3 4096 128 64) (x2 : A2 64 256) (x3 x4 x5 x6 x7 : A1 256)
    (r : Fin 524288) (j : Fin 256) :
    val_main_v33 (F := Ideal) x0 x1 x2 x3 x4 x5 x6 x7 (ix2 r j)
      = actR (lin (fun c : Fin 64 => propR (adj x0) x1 (rowB r) (rowN r) c) x2 j)
          (x3 (ix1 j)) (x6 (ix1 j)) (x7 (ix1 j)) (x4 (ix1 j)) (x5 (ix1 j)) := by
  have e3 : idx_main_v15 (idx_main_v16 (ix2 r j)) = ix1 j :=
    funext fun a => Fin.ext (by match a with | ⟨0, _⟩ => rfl)
  have e6 : idx_main_v18 (idx_main_v19 (ix2 r j)) = ix1 j :=
    funext fun a => Fin.ext (by match a with | ⟨0, _⟩ => rfl)
  have e7 : idx_main_v24 (idx_main_v25 (ix2 r j)) = ix1 j :=
    funext fun a => Fin.ext (by match a with | ⟨0, _⟩ => rfl)
  have e4 : idx_main_v27 (idx_main_v28 (ix2 r j)) = ix1 j :=
    funext fun a => Fin.ext (by match a with | ⟨0, _⟩ => rfl)
  have e5 : idx_main_v30 (idx_main_v31 (ix2 r j)) = ix1 j :=
    funext fun a => Fin.ext (by match a with | ⟨0, _⟩ => rfl)
  rw [val_main_v33_apply, val_main_v32_apply, val_main_v29_apply, val_main_v26_apply, val_main_v20_apply,
    val_main_v17_apply, v14_at, val_main_v16_apply, val_main_v15_apply, e3, val_main_v19_apply, val_main_v18_apply, e6,
    val_main_v25_apply, val_main_v24_apply, e7, val_main_v23_apply, val_main_v22_apply, val_main_v21_apply,
    val_main_cst_2_apply, val_main_v28_apply, val_main_v27_apply, e4, val_main_v31_apply, val_main_v30_apply, e5,
    val_main_call0_v0_apply, val_main_call0_cst_apply, Ideal.ofBits_def, Ideal.ofBits_def, Ideal.ofBits_zero_f32]
  rfl

/-- The second linear layer: row `r` of the first layer's result times the second weight matrix. -/
theorem v34_at (x0 : A3 4096 128 128) (x1 : A3 4096 128 64) (x2 : A2 64 256) (x3 x4 x5 x6 x7 : A1 256)
    (x8 : A2 256 128) (r : Fin 524288) (k : Fin 128) :
    val_main_v34 (F := Ideal) x0 x1 x2 x3 x4 x5 x6 x7 x8 (ix2 r k)
      = lin (fun j : Fin 256 =>
          actR (lin (fun c : Fin 64 => propR (adj x0) x1 (rowB r) (rowN r) c) x2 j)
            (x3 (ix1 j)) (x6 (ix1 j)) (x7 (ix1 j)) (x4 (ix1 j)) (x5 (ix1 j))) x8 k := by
  rw [val_main_v34_apply]
  unfold lin
  refine Finset.sum_congr rfl fun j _ => ?_
  have el : lidx_main_v34 (ix2 r k) j = ix2 r j :=
    funext fun a => Fin.ext (by match a with | ⟨0, _⟩ => rfl | ⟨1, _⟩ => rfl)
  have er : ridx_main_v34 (ix2 r k) j = ix2 j k :=
    funext fun a => Fin.ext (by match a with | ⟨0, _⟩ => rfl | ⟨1, _⟩ => rfl)
  rw [el, er, v33_at]
  rfl

/-- The second layer through its normalisation and rectifier: the reference's result at row `r`, column `k`. -/
theorem v53_at (x0 : A3 4096 128 128) (x1 : A3 4096 128 64) (x2 : A2 64 256) (x3 x4 x5 x6 x7 : A1 256)
    (x8 : A2 256 128) (x9 x10 x11 x12 x13 : A1 128) (r : Fin 524288) (k : Fin 128) :
    val_main_v53 (F := Ideal) x0 x1 x2 x3 x4 x5 x6 x7 x8 x9 x10 x11 x12 x13 (ix2 r k)
      = GR x0 x1 x2 x3 x4 x5 x6 x7 x8 x9 x10 x11 x12 x13 (rowB r) (rowN r) k := by
  have e9 : idx_main_v35 (idx_main_v36 (ix2 r k)) = ix1 k :=
    funext fun a => Fin.ext (by match a with | ⟨0, _⟩ => rfl)
  have e12 : idx_main_v38 (idx_main_v39 (ix2 r k)) = ix1 k :=
    funext fun a => Fin.ext (by match a with | ⟨0, _⟩ => rfl)
  have e13 : idx_main_v44 (idx_main_v45 (ix2 r k)) = ix1 k :=
    funext fun a => Fin.ext (by match a with | ⟨0, _⟩ => rfl)
  have e10 : idx_main_v47 (idx_main_v48 (ix2 r k)) = ix1 k :=
    funext fun a => Fin.ext (by match a with | ⟨0, _⟩ => rfl)
  have e11 : idx_main_v50 (idx_main_v51 (ix2 r k)) = ix1 k :=
    funext fun a => Fin.ext (by match a with | ⟨0, _⟩ => rfl)
  rw [val_main_v53_apply, val_main_v52_apply, val_main_v49_apply, val_main_v46_apply, val_main_v40_apply,
    val_main_v37_apply, v34_at, val_main_v36_apply, val_main_v35_apply, e9, val_main_v39_apply, val_main_v38_apply, e12,
    val_main_v45_apply, val_main_v44_apply, e13, val_main_v43_apply, val_main_v42_apply, val_main_v41_apply,
    val_main_cst_3_apply, val_main_v48_apply, val_main_v47_apply, e10, val_main_v51_apply, val_main_v50_apply, e11,
    val_main_call1_v0_apply, val_main_call1_cst_apply, Ideal.ofBits_def, Ideal.ofBits_def, Ideal.ofBits_zero_f32]
  rfl

/-- The reference program's result array is the specification's second arrangement. -/
theorem ref_value (x0 : (⟨S4096x128x128, .f32⟩ : BufTy).Contents (Elt Ideal))
    (x1 : (⟨S4096x128x64, .f32⟩ : BufTy).Contents (Elt Ideal)) (x2 : (⟨S64x256, .f32⟩ : BufTy).Contents (Elt Ideal))
    (x3 x4 x5 x6 x7 : (⟨S256, .f32⟩ : BufTy).Contents (Elt Ideal)) (x8 : (⟨S256x128, .f32⟩ : BufTy).Contents (Elt Ideal))
    (x9 x10 x11 x12 x13 : (⟨S128, .f32⟩ : BufTy).Contents (Elt Ideal)) :
    val_main_v53 (F := Ideal) x0 x1 x2 x3 x4 x5 x6 x7 x8 x9 x10 x11 x12 x13
      = GRarr x0 x1 x2 x3 x4 x5 x6 x7 x8 x9 x10 x11 x12 x13 := by
  funext i
  obtain ⟨r, k, rfl⟩ : ∃ (r : Fin 524288) (k : Fin 128), i = ix2 r k := ⟨i 0, i 1, eq_ix2 i⟩
  rw [v53_at]
  rfl

end Cert.RefValue

end
-- ==== Proof.Algebra.lean ====
/-
  The algebra behind the equality of the two arrangements of the layer, on Mathlib's extended reals.

  Nothing here speaks of a program. The adjacency's entries are naturals, so each degree is a real, positive by
  hypothesis; on a positive real the reciprocal root and the power `-1/2` are the same positive real. A nonnegative real
  factor distributes over a finite sum of extended reals (distributivity fails in general there: `⊤ * (1 + -1)`), which
  turns one propagation into the other. The normalisation written out and its folded affine form agree for every
  extended real argument, infinite ones included, once the parameters are real and the running variance is not negative.
-/
import proofs.«120561_j61967788146761_2_alg».proof.Proof.Spec
import Mathlib

noncomputable section

namespace Cert.Algebra

open Cert.Spec Idealize.ShloMosaic Idealize.ShloMosaic.ValueIdx

/-! ### The two constants -/

/-- The exponent's pattern denotes the real `-1/2`. -/
theorem negHalf_eq : negHalf = (((-1/2 : ℝ)) : EReal) := by
  simp [negHalf, Ideal.ofBits, Ideal.ieee, -EReal.coe_mul]; norm_num

/-- The variance offset's pattern denotes the real `10995116 / 2^40`. -/
theorem eps_eq : eps = ((10995116 * (2 ^ 40)⁻¹ : ℝ) : EReal) := by
  simp [eps, Ideal.ofBits, Ideal.ieee, -EReal.coe_mul]

/-- The variance offset is a positive real. -/
theorem eps_real : ∃ e : ℝ, 0 < e ∧ eps = (e : EReal) :=
  ⟨10995116 * (2 ^ 40)⁻¹, by positivity, eps_eq⟩

/-! ### Finite sums -/

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- A nonnegative real factor distributes over a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  refine Finset.induction_on s (by simp) ?_
  intro a s ha ih
  rw [Finset.sum_insert ha, Finset.sum_insert ha, ← ih]
  exact EReal.left_distrib_of_nonneg_of_ne_top (EReal.coe_nonneg.mpr hc) (EReal.coe_ne_top c) _ _

/-! ### The degree and its two reciprocal roots -/

variable {B : Nat}

/-- The degree of a node in the thresholded adjacency is a real: a finite sum of naturals. -/
theorem deg_adj_real (a : A3 B 128 128) (b : Fin B) (n : Fin 128) :
    deg (adj a) b n
      = ((∑ m : Fin 128, ((Ideal.cmp .oge (a (ix3 b n m)) thr).toNat : ℝ) : ℝ) : EReal) := by
  unfold deg adj
  exact coe_sum _ _

/-- On a positive real the reciprocal root and the power `-1/2` are the same real `(√r)⁻¹`. -/
theorem rsqrt_pow_of_pos (r : ℝ) (hr : 0 < r) :
    Ideal.rsqrt (r : EReal) = (((Real.sqrt r)⁻¹ : ℝ) : EReal)
      ∧ Ideal.pow (r : EReal) negHalf = (((Real.sqrt r)⁻¹ : ℝ) : EReal) := by
  constructor
  · rw [Ideal.rsqrt_coe, if_neg (not_lt.mpr hr.le), if_neg hr.ne']
  · rw [negHalf_eq, Ideal.pow_coe_coe]
    congr 1
    show r ^ (-1/2 : ℝ) = (Real.sqrt r)⁻¹
    rw [Real.sqrt_eq_rpow, ← Real.rpow_neg hr.le]
    norm_num

/-- With every degree positive, both spellings of `d^(-1/2)` are one nonnegative real. -/
theorem deg_scale (a : A3 B 128 128) (hd : ∀ (b : Fin B) (n : Fin 128), 0 < deg (adj a) b n)
    (b : Fin B) (n : Fin 128) :
    ∃ q : ℝ, 0 ≤ q ∧ Ideal.rsqrt (deg (adj a) b n) = (q : EReal)
      ∧ Ideal.pow (deg (adj a) b n) negHalf = (q : EReal) := by
  have hpos := hd b n
  rw [deg_adj_real a b n] at hpos ⊢
  obtain ⟨h1, h2⟩ := rsqrt_pow_of_pos _ (EReal.coe_pos.mp hpos)
  exact ⟨_, by positivity, h1, h2⟩

/-! ### The two propagations -/

/-- Scaling the features and the result is scaling the adjacency's entries on both sides. -/
theorem propK_eq_propR (a : A3 B 128 128) (v : A3 B 128 64)
    (hd : ∀ (b : Fin B) (n : Fin 128), 0 < deg (adj a) b n) (b : Fin B) (n : Fin 128) (c : Fin 64) :
    propK (adj a) v b n c = propR (adj a) v b n c := by
  choose q hq0 hq1 hq2 using fun m => deg_scale a hd b m
  unfold propK propR
  simp only [hq1, hq2]
  rw [mul_comm, coe_mul_sum _ _ (hq0 n)]
  refine Finset.sum_congr rfl (fun m _ => ?_)
  ac_rfl

/-! ### The normalisation and its folded form -/

/-- A real summand and a real factor: `(y + c) * s = y * s + c * s` for every extended real `y`. -/
theorem add_coe_mul_coe (y : EReal) (c s : ℝ) :
    (y + (c : EReal)) * (s : EReal) = y * (s : EReal) + (c : EReal) * (s : EReal) := by
  induction y using EReal.rec with
  | bot =>
    rw [EReal.bot_add]
    rcases lt_trichotomy s 0 with hs | hs | hs
    · rw [EReal.bot_mul_coe_of_neg hs, ← EReal.coe_mul, EReal.top_add_coe]
    · subst hs; simp
    · rw [EReal.bot_mul_coe_of_pos hs, EReal.bot_add]
  | coe y =>
    rw [← EReal.coe_add, ← EReal.coe_mul, ← EReal.coe_mul, ← EReal.coe_mul, ← EReal.coe_add, add_mul]
  | top =>
    rw [EReal.top_add_coe]
    rcases lt_trichotomy s 0 with hs | hs | hs
    · rw [EReal.top_mul_coe_of_neg hs, EReal.bot_add]
    · subst hs; simp
    · rw [EReal.top_mul_coe_of_pos hs, ← EReal.coe_mul, EReal.top_add_coe]

/-- The folded affine form is the normalisation as written, for real parameters and a nonnegative variance. -/
theorem act_eq (y : EReal) (b g be rm rv : ℝ) (hrv : 0 ≤ rv) :
    actK y (scaleK g rv) (shiftK be b rm (scaleK g rv)) = actR y b rm rv g be := by
  obtain ⟨e, he0, he⟩ := eps_real
  have hpos : 0 < rv + e := by linarith
  have hρ : Ideal.rsqrt ((rv : EReal) + eps) = (((Real.sqrt (rv + e))⁻¹ : ℝ) : EReal) := by
    rw [he, ← EReal.coe_add, Ideal.rsqrt_coe, if_neg (not_lt.mpr hpos.le), if_neg hpos.ne']
  unfold actK actR scaleK shiftK
  rw [hρ]
  generalize (Real.sqrt (rv + e))⁻¹ = ρ
  congr 1
  have h1 : (y + (b : EReal)) - (rm : EReal) = y + ((b - rm : ℝ) : EReal) := by
    rw [sub_eq_add_neg, add_assoc, ← sub_eq_add_neg, ← EReal.coe_sub]
  have h2 : (b : EReal) - (rm : EReal) = ((b - rm : ℝ) : EReal) := (EReal.coe_sub b rm).symm
  rw [h1, h2, mul_assoc, mul_comm (ρ : EReal) (g : EReal), ← EReal.coe_mul g ρ, add_coe_mul_coe,
    add_comm (be : EReal), ← add_assoc]

/-- The same, with the parameters given as extended reals known to be real. -/
theorem act_eq' (y b g be rm rv : EReal) (hb : ∃ r : ℝ, b = (r : EReal)) (hg : ∃ r : ℝ, g = (r : EReal))
    (hbe : ∃ r : ℝ, be = (r : EReal)) (hrm : ∃ r : ℝ, rm = (r : EReal)) (hrv : ∃ r : ℝ, rv = (r : EReal))
    (h0 : 0 ≤ rv) :
    actK y (scaleK g rv) (shiftK be b rm (scaleK g rv)) = actR y b rm rv g be := by
  obtain ⟨b, rfl⟩ := hb
  obtain ⟨g, rfl⟩ := hg
  obtain ⟨be, rfl⟩ := hbe
  obtain ⟨rm, rfl⟩ := hrm
  obtain ⟨rv, rfl⟩ := hrv
  exact act_eq y b g be rm rv (EReal.coe_nonneg.mp h0)

/-! ### The two arrangements -/

/-- On the domain the two arrangements agree index by index. -/
theorem GK_eq_GR (a : A3 B 128 128) (v : A3 B 128 64) (W1 : A2 64 256) (b1 g1 be1 rm1 rv1 : A1 256)
    (W2 : A2 256 128) (b2 g2 be2 rm2 rv2 : A1 128)
    (h : Domain a b1 g1 be1 rm1 rv1 b2 g2 be2 rm2 rv2) (b : Fin B) (n k : Fin 128) :
    GK a v W1 b1 g1 be1 rm1 rv1 W2 b2 g2 be2 rm2 rv2 b n k
      = GR a v W1 b1 g1 be1 rm1 rv1 W2 b2 g2 be2 rm2 rv2 b n k := by
  have hP : (fun c : Fin 64 => propK (adj a) v b n c) = (fun c : Fin 64 => propR (adj a) v b n c) :=
    funext (fun c => propK_eq_propR a v h.deg_pos b n c)
  have h1 : ∀ (y : EReal) (i : (⟨1, ![256]⟩ : Shape).Idx),
      actK y (scaleK (g1 i) (rv1 i)) (shiftK (be1 i) (b1 i) (rm1 i) (scaleK (g1 i) (rv1 i)))
        = actR y (b1 i) (rm1 i) (rv1 i) (g1 i) (be1 i) := fun y i =>
    act_eq' y _ _ _ _ _ (h.b1_real i) (h.g1_real i) (h.be1_real i) (h.rm1_real i) (h.rv1_real i) (h.rv1_nonneg i)
  have h2 : ∀ (y : EReal) (i : (⟨1, ![128]⟩ : Shape).Idx),
      actK y (scaleK (g2 i) (rv2 i)) (shiftK (be2 i) (b2 i) (rm2 i) (scaleK (g2 i) (rv2 i)))
        = actR y (b2 i) (rm2 i) (rv2 i) (g2 i) (be2 i) := fun y i =>
    act_eq' y _ _ _ _ _ (h.b2_real i) (h.g2_real i) (h.be2_real i) (h.rm2_real i) (h.rv2_real i) (h.rv2_nonneg i)
  unfold GK GR blockK
  simp only [hP, h1, h2]

end Cert.Algebra

end
-- ==== Proof.PreFacts.lean ====
/-
  The precondition read back. The predicate is a conjunction of seventeen conditions on the fourteen argument arrays, each an
  "every element satisfies ..." taken over a whole array: |x| < +∞ for each array; every row of the thresholded adjacency has a
  positive sum; the two running variances are nowhere negative. From the predicate's value being 1 this file derives the
  facts the equality of the two arrangements needs: the normalisation parameters are real numbers, the variances are not
  negative, and every node's degree is positive.

  An element with |x| < +∞ on the extended reals is neither +∞ nor −∞ (|−∞| = max (−∞) (+∞) = +∞), hence a real. A row's
  sum, taken from the initial value 0, is the sum over the row's 128 entries of the 0/1 indicator [a ≥ 0.1], which is the
  degree of that node in the thresholded adjacency.
-/
import proofs.«120561_j61967788146761_2_alg».proof.Pre_finite_inputs
import proofs.«120561_j61967788146761_2_alg».proof.Proof.Spec
import Idealize.ShloMosaic.Lib.ReduceAll
import Idealize.ShloMosaic.Lib.ValueIdx

noncomputable section

namespace Cert.PreFacts

open Idealize.ShloMosaic Idealize.ShloMosaic.ValueIdx
open Cert.Pre_finite_inputs

/-- The rank-0 shape has exactly one index. -/
instance : Subsingleton S_.Idx := ⟨fun a b => funext fun d => d.elim0⟩

/-! ## One element -/

/-- A decided condition's bit is 1 exactly when the condition holds. -/
theorem ofBool_eq_one (b : Bool) : BitVec.ofBool b = 1#1 ↔ b = true := by cases b <;> decide

/-- The binary32 pattern 0x7F800000 denotes +∞. -/
theorem ofBits_inf_f32 : Ideal.ofBits .f32 0x7F800000#32 = (⊤ : EReal) := by simp [Ideal.ofBits, Ideal.ieee]

/-- |x| < +∞ on the extended reals: x is a real number. -/
theorem real_of_abs_lt_inf (x : EReal) (h : Ideal.cmp .olt (max x (-x)) (Ideal.ofBits .f32 0x7F800000#32) = 1#1) :
    ∃ r : ℝ, x = (r : EReal) := by
  rw [ofBits_inf_f32] at h
  have h' : max x (-x) < ⊤ := by simpa [Ideal.cmp, ofBool_eq_one] using h
  induction x using EReal.rec with
  | bot => simp at h'
  | coe r => exact ⟨r, rfl⟩
  | top => simp at h'

/-- x ≥ 0 as a comparison bit against the binary32 zero. -/
theorem nonneg_of_cmp (x : EReal) (h : Ideal.cmp .oge x (Ideal.ofBits .f32 0x00000000#32) = 1#1) : 0 ≤ x := by
  rw [Ideal.ofBits_zero_f32] at h
  simpa [Ideal.cmp, ofBool_eq_one] using h

/-- x > 0 as a comparison bit against the binary32 zero. -/
theorem pos_of_cmp (x : EReal) (h : Ideal.cmp .ogt x (Ideal.ofBits .f32 0x00000000#32) = 1#1) : 0 < x := by
  rw [Ideal.ofBits_zero_f32] at h
  simpa [Ideal.cmp, ofBool_eq_one] using h

/-! ## A whole array -/

section Arrays
variable {s : Shape} {axes : List (Fin s.rank)}

/-- "Every element has |x| < +∞", as the predicate spells it, makes every element a real number. -/
theorem real_of_all (x : FVec Ideal s .f32) (hb : S_.BroadcastsInDim s (![] : Fin 0 → Fin s.rank)) (hr : s.ReducesTo axes S_)
    (hu : 0 < S_.numel)
    (h : Host.reduce IntOp.andi
          (cmpf .olt (Host.absf x) (broadcastInDim s ![] hb (constant (F := Ideal) S_ .f32 0x7F800000#32)))
          (constantI S_ 1 1#1) hr hu ix0 = 1#1) (i : s.Idx) : ∃ r : ℝ, x i = (r : EReal) :=
  real_of_abs_lt_inf (x i) (Host.reduce_andi_all _ _ hr hu ix0 h i)

/-- "Every element is at least 0", as the predicate spells it. -/
theorem nonneg_of_all (x : FVec Ideal s .f32) (hb : S_.BroadcastsInDim s (![] : Fin 0 → Fin s.rank)) (hr : s.ReducesTo axes S_)
    (hu : 0 < S_.numel)
    (h : Host.reduce IntOp.andi
          (cmpf .oge x (broadcastInDim s ![] hb (constant (F := Ideal) S_ .f32 0x00000000#32)))
          (constantI S_ 1 1#1) hr hu ix0 = 1#1) (i : s.Idx) : 0 ≤ x i :=
  nonneg_of_cmp (x i) (Host.reduce_andi_all _ _ hr hu ix0 h i)

end Arrays

/-- A conjunction of two one-bit arrays that is 1 at an index: both are 1 there. -/
theorem and_split {s : Shape} (x y : IVec s 1) (i : s.Idx) (h : andi x y i = 1#1) : x i = 1#1 ∧ y i = 1#1 :=
  IntOp.andi_eq_one.1 h

/-! ## A row's sum -/

/-- The sum over the last axis of a [4096, 128, 128] array from the initial value 0, read at row (b, n): the sum of the
    row's 128 entries. -/
theorem reduceAdd_row (X : FVec Ideal S4096x128x128 .f32) (hr : S4096x128x128.ReducesTo [2] S4096x128) (hu : 0 < S_.numel)
    (b : Fin 4096) (n : Fin 128) :
    Host.reduceAdd X (constant (F := Ideal) S_ .f32 0x00000000#32) hr hu (ix2 b n) = ∑ m : Fin 128, X (ix3 b n m) := by
  have hR : S4096x128x128.Reduces [2] S4096x128 := by decide
  refine (Ideal.hostReduceAdd_single hr hR X _ (ix2 b n)).trans ?_
  show Ideal.ofBits .f32 0x00000000#32 + ∑ k : Fin 128, X (hR.lift (ix2 b n) k) = _
  rw [Ideal.ofBits_zero_f32, zero_add]
  refine Finset.sum_congr rfl fun k _ => congrArg X ?_
  funext a
  match a with
  | ⟨0, _⟩ => rfl
  | ⟨1, _⟩ => rfl
  | ⟨2, _⟩ => rfl

/-- "Every row of the thresholded adjacency has a positive sum", as the predicate spells it: every degree is positive. -/
theorem deg_pos_of_all (x0 : FVec Ideal S4096x128x128 .f32)
    (hb0 : S_.BroadcastsInDim S4096x128x128 (![] : Fin 0 → Fin S4096x128x128.rank))
    (hr1 : S4096x128x128.ReducesTo [2] S4096x128) (hu : 0 < S_.numel)
    (hb1 : S_.BroadcastsInDim S4096x128 (![] : Fin 0 → Fin S4096x128.rank)) (hr2 : S4096x128.ReducesTo [0, 1] S_)
    (h : Host.reduce IntOp.andi
          (cmpf .ogt
            (Host.reduceAdd
              (uitofp .f32 (cmpf .oge x0 (broadcastInDim S4096x128x128 ![] hb0 (constant (F := Ideal) S_ .f32 0x3DCCCCCD#32))))
              (constant (F := Ideal) S_ .f32 0x00000000#32) hr1 hu)
            (broadcastInDim S4096x128 ![] hb1 (constant (F := Ideal) S_ .f32 0x00000000#32)))
          (constantI S_ 1 1#1) hr2 hu ix0 = 1#1)
    (b : Fin 4096) (n : Fin 128) : 0 < Cert.Spec.deg (Cert.Spec.adj x0) b n := by
  have e := Host.reduce_andi_all _ _ hr2 hu ix0 h (ix2 b n)
  have p := pos_of_cmp _ e
  rw [reduceAdd_row] at p
  exact p

/-! ## The predicate -/

/-- THE PRECONDITION DECODED. The predicate's value 1 gives, of its seventeen conjuncts, the ten finiteness conditions on the
    normalisation parameters, the two sign conditions on the running variances, and the positivity of every row sum of the
    thresholded adjacency. (The finiteness of the adjacency's entries, of the features and of the two weight matrices is not
    needed.) -/
theorem domain_of_pre [Cert.Pre_finite_inputs.Facts]
    (x0 : FVec Ideal S4096x128x128 .f32) (x1 : FVec Ideal S4096x128x64 .f32) (x2 : FVec Ideal S64x256 .f32)
    (x3 x4 x5 x6 x7 : FVec Ideal S256 .f32) (x8 : FVec Ideal S256x128 .f32) (x9 x10 x11 x12 x13 : FVec Ideal S128 .f32)
    (h : Cert.Pre_finite_inputs.fn (F := Ideal) x0 x1 x2 x3 x4 x5 x6 x7 x8 x9 x10 x11 x12 x13 = fun _ => 1#1) :
    Cert.Spec.Domain x0 x3 x4 x5 x6 x7 x9 x10 x11 x12 x13 := by
  have h0 := congrFun h ix0
  dsimp only [fn, fn_part1, fn_part2, fn_part3, fn_part4, fn_part5] at h0
  -- the conjunction is nested to the left: the last conjunct is the outermost
  obtain ⟨h0, c17⟩ := and_split _ _ _ h0
  obtain ⟨h0, c16⟩ := and_split _ _ _ h0
  obtain ⟨h0, c15⟩ := and_split _ _ _ h0
  obtain ⟨h0, c14⟩ := and_split _ _ _ h0
  obtain ⟨h0, c13⟩ := and_split _ _ _ h0
  obtain ⟨h0, c12⟩ := and_split _ _ _ h0
  obtain ⟨h0, c11⟩ := and_split _ _ _ h0
  obtain ⟨h0, c10⟩ := and_split _ _ _ h0
  obtain ⟨h0, -⟩ := and_split _ _ _ h0
  obtain ⟨h0, c8⟩ := and_split _ _ _ h0
  obtain ⟨h0, c7⟩ := and_split _ _ _ h0
  obtain ⟨h0, c6⟩ := and_split _ _ _ h0
  obtain ⟨h0, c5⟩ := and_split _ _ _ h0
  obtain ⟨-, c4⟩ := and_split _ _ _ h0
  exact
    { b1_real := real_of_all x3 _ _ _ c4
      g1_real := real_of_all x4 _ _ _ c5
      be1_real := real_of_all x5 _ _ _ c6
      rm1_real := real_of_all x6 _ _ _ c7
      rv1_real := real_of_all x7 _ _ _ c8
      b2_real := real_of_all x9 _ _ _ c10
      g2_real := real_of_all x10 _ _ _ c11
      be2_real := real_of_all x11 _ _ _ c12
      rm2_real := real_of_all x12 _ _ _ c13
      rv2_real := real_of_all x13 _ _ _ c14
      rv1_nonneg := nonneg_of_all x7 _ _ _ c16
      rv2_nonneg := nonneg_of_all x13 _ _ _ c17
      deg_pos := deg_pos_of_all x0 _ _ _ _ _ c15 }

end Cert.PreFacts

end
-- ==== Proof.lean ====
/-
  A graph layer: threshold the `[4096, 128, 128]` array `a` at `0.1` to a 0/1 adjacency `A`, normalise it by the node
  degrees `d` to `D^(-1/2) A D^(-1/2)`, propagate the features `v`, and run a two-layer perceptron on the
  `4096 * 128` nodes, each layer followed by a batch normalisation with running statistics and a rectifier.

  The kernel scales `v` by `rsqrt d` on the column index before the product with `A` and the product by `rsqrt d` on
  the row index after it, and applies each normalisation as one affine map `y * s + t` whose scale
  `s = g * rsqrt (rv + ε)` and shift `t = be + (b - rm) * s` are computed beforehand; the reference scales the entries
  of `A` by `d ^ (-1/2)` on both sides and applies `((y + b) - rm) * rsqrt (rv + ε) * g + be` as written. On the
  extended reals the two agree where every node has a neighbour (there `rsqrt d` and `d ^ (-1/2)` are one positive
  real, which distributes over the sum; at `d = 0` the one is `⊤` and the other `0`), the running variances are not
  negative (so `rsqrt (rv + ε)` is a positive real) and the normalisations' parameters are finite: that is the
  precondition. A change of float format is the identity here, a matrix unit's product into a zero accumulator is
  the host's contraction, a lane sum the host's sum.

  The frames are the generated ones. The kernel's result is read off its generated frame run block by block
  (Proof/KPayload.lean, Proof/KValue.lean), the reference's off its generated run (Proof/RefValue.lean); both are
  stated over one specification (Proof/Spec.lean), whose two arrangements are equal on the precondition's domain
  (Proof/Algebra.lean, Proof/PreFacts.lean).
-/
import proofs.«120561_j61967788146761_2_alg».proof.Defs
import proofs.«120561_j61967788146761_2_alg».proof.Proof.Gen.Kernel
import proofs.«120561_j61967788146761_2_alg».proof.Proof.Gen.Kernel.Skeleton
import proofs.«120561_j61967788146761_2_alg».proof.Proof.Gen.Kernel.Launch
import proofs.«120561_j61967788146761_2_alg».proof.Proof.Gen.Kernel.Points
import proofs.«120561_j61967788146761_2_alg».proof.Proof.Gen.Kernel.Frame
import proofs.«120561_j61967788146761_2_alg».proof.Proof.Gen.KernelIdeal
import proofs.«120561_j61967788146761_2_alg».proof.Proof.Gen.KernelIdeal.Skeleton
import proofs.«120561_j61967788146761_2_alg».proof.Proof.Gen.KernelIdeal.Launch
import proofs.«120561_j61967788146761_2_alg».proof.Proof.Gen.KernelIdeal.Points
import proofs.«120561_j61967788146761_2_alg».proof.Proof.Gen.KernelIdeal.Frame
import proofs.«120561_j61967788146761_2_alg».proof.Proof.Gen.ReferenceIdeal
import proofs.«120561_j61967788146761_2_alg».proof.Proof.Gen.ReferenceIdeal.Run
import proofs.«120561_j61967788146761_2_alg».proof.Proof.Gen.ReferenceIdeal.Read
import proofs.«120561_j61967788146761_2_alg».proof.Proof.Gen.Pre_finite_inputs
import proofs.«120561_j61967788146761_2_alg».proof.Proof.Spec
import proofs.«120561_j61967788146761_2_alg».proof.Proof.KValue
import proofs.«120561_j61967788146761_2_alg».proof.Proof.RefValue
import proofs.«120561_j61967788146761_2_alg».proof.Proof.Algebra
import proofs.«120561_j61967788146761_2_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct to restate. -/
theorem preserves : Cert.preserves_Kernel_KernelIdeal := trivial

/-- From memories that agree on the arguments, the kernel's result is the first arrangement and the reference's the
    second, of the same arrays; on the precondition's domain the two are equal index by index. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v53_eq, Cert.RefValue.ref_value, a0, a1, a2, a3, a4, a5, a6, a7, a8, a9, a10, a11, a12, a13]
  funext i
  exact (Cert.Algebra.GK_eq_GR _ _ _ _ _ _ _ _ _ _ _ _ _ _
    (Cert.PreFacts.domain_of_pre _ _ _ _ _ _ _ _ _ _ _ _ _ _ (hpre c)) _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
